-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1362944x128 : Shape := ⟨2, ![1362944, 128]⟩
abbrev S1239040 : Shape := ⟨1, ![1239040]⟩
abbrev S112640 : Shape := ⟨1, ![112640]⟩
abbrev S10240 : Shape := ⟨1, ![10240]⟩
abbrev S128x128 : Shape := ⟨2, ![128, 128]⟩
abbrev S128 : Shape := ⟨1, ![128]⟩
abbrev S_ : Shape := ⟨0, ![]⟩

class Facts : Prop where
  bcast_S_S1362944x128 : S_.BroadcastsInDim S1362944x128 (![] : Fin 0 → Fin S1362944x128.rank)
  reducesTo_S1362944x128_S_d0_1 : S1362944x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg13 : FVec F S128x128 .f32) (main_arg14 : FVec F S128 .f32) (main_arg15 : FVec F S128x128 .f32) (main_v33 : IVec S_ 1) : IVec S_ 1 :=
  let main_v34 : FVec F S128x128 .f32 := Host.absf main_arg13
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg14
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg15
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg10 : FVec F S128x128 .f32) (main_arg11 : FVec F S128 .f32) (main_arg12 : FVec F S128x128 .f32) (main_arg13 : FVec F S128x128 .f32) (main_arg14 : FVec F S128 .f32) (main_arg15 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg10
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg11
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg12
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg13 main_arg14 main_arg15 main_v33

def fn {F : FTy → Type} [FloatOps F] (main_arg0 : FVec F S1362944x128 .f32) (main_arg1 : IVec S1239040 32) (main_arg2 : IVec S1239040 32) (main_arg3 : IVec S112640 32) (main_arg4 : IVec S112640 32) (main_arg5 : IVec S10240 32) (main_arg6 : IVec S10240 32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_arg15 : FVec F S128x128 .f32) : IVec S_ 1 :=
  let main_v0 : FVec F S1362944x128 .f32 := Host.absf main_arg0
  let main_cst : FVec F S_ .f32 := constant S_ .f32 0x7F800000#32
  let main_v1 : FVec F S1362944x128 .f32 := broadcastInDim S1362944x128 ![] bcast_S_S1362944x128 main_cst
  let main_v2 : IVec S1362944x128 1 := cmpf .olt main_v0 main_v1
  let main_c : IVec S_ 1 := constantI S_ 1 1#1
  let main_v3 : IVec S_ 1 := (fun x v => Host.reduce IntOp.andi x v reducesTo_S1362944x128_S_d0_1 h_S_) main_v2 main_c
  let main_v4 : FVec F S128x128 .f32 := Host.absf main_arg7
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg8
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg9
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg10 main_arg11 main_arg12 main_arg13 main_arg14 main_arg15 main_v13 main_v16
-- ==== Kernel.lean ====
abbrev S1362944x128 : Shape := ⟨2, ![1362944, 128]⟩
abbrev S1239040 : Shape := ⟨1, ![1239040]⟩
abbrev S112640 : Shape := ⟨1, ![112640]⟩
abbrev S10240 : Shape := ⟨1, ![10240]⟩
abbrev S128x128 : Shape := ⟨2, ![128, 128]⟩
abbrev S128 : Shape := ⟨1, ![128]⟩
abbrev S_ : Shape := ⟨0, ![]⟩
abbrev S1239040x1 : Shape := ⟨2, ![1239040, 1]⟩
abbrev S1239040x128 : Shape := ⟨2, ![1239040, 128]⟩
abbrev S123904x128 : Shape := ⟨2, ![123904, 128]⟩
abbrev S123904 : Shape := ⟨1, ![123904]⟩
abbrev S123904x1 : Shape := ⟨2, ![123904, 1]⟩
abbrev S1x128 : Shape := ⟨2, ![1, 128]⟩
abbrev S1024x128 : Shape := ⟨2, ![1024, 128]⟩
abbrev S112640x1 : Shape := ⟨2, ![112640, 1]⟩
abbrev S112640x128 : Shape := ⟨2, ![112640, 128]⟩
abbrev S11264x128 : Shape := ⟨2, ![11264, 128]⟩
abbrev S11264 : Shape := ⟨1, ![11264]⟩
abbrev S11264x1 : Shape := ⟨2, ![11264, 1]⟩
abbrev S10240x1 : Shape := ⟨2, ![10240, 1]⟩
abbrev S10240x128 : Shape := ⟨2, ![10240, 128]⟩
abbrev S1024 : Shape := ⟨1, ![1024]⟩
abbrev S1024x1 : Shape := ⟨2, ![1024, 1]⟩

abbrev nBuf : Space → Nat
  | .hbm => 100
  | .vmem => 24
  | .smem => 0
  | _ => 0

abbrev bufTy : (tb : Table) → Fin (tcTables nBuf tb) → BufTy
  | .hbm, ⟨0, _⟩ => ⟨S1362944x128, .f32⟩
  | .hbm, ⟨1, _⟩ => ⟨S1239040, .i32⟩
  | .hbm, ⟨2, _⟩ => ⟨S1239040, .i32⟩
  | .hbm, ⟨3, _⟩ => ⟨S112640, .i32⟩
  | .hbm, ⟨4, _⟩ => ⟨S112640, .i32⟩
  | .hbm, ⟨5, _⟩ => ⟨S10240, .i32⟩
  | .hbm, ⟨6, _⟩ => ⟨S10240, .i32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S_, .i32⟩
  | .hbm, ⟨17, _⟩ => ⟨S1239040, .i32⟩
  | .hbm, ⟨18, _⟩ => ⟨S1239040, .i1⟩
  | .hbm, ⟨19, _⟩ => ⟨S_, .i32⟩
  | .hbm, ⟨20, _⟩ => ⟨S1239040, .i32⟩
  | .hbm, ⟨21, _⟩ => ⟨S1239040, .i32⟩
  | .hbm, ⟨22, _⟩ => ⟨S1239040, .i32⟩
  | .hbm, ⟨23, _⟩ => ⟨S1239040x1, .i32⟩
  | .hbm, ⟨24, _⟩ => ⟨S1239040x128, .f32⟩
  | .hbm, ⟨25, _⟩ => ⟨S_, .f32⟩
  | .hbm, ⟨26, _⟩ => ⟨S123904x128, .f32⟩
  | .hbm, ⟨27, _⟩ => ⟨S1239040x1, .i32⟩
  | .hbm, ⟨28, _⟩ => ⟨S123904x128, .f32⟩
  | .hbm, ⟨29, _⟩ => ⟨S_, .f32⟩
  | .hbm, ⟨30, _⟩ => ⟨S1239040, .f32⟩
  | .hbm, ⟨31, _⟩ => ⟨S_, .f32⟩
  | .hbm, ⟨32, _⟩ => ⟨S123904, .f32⟩
  | .hbm, ⟨33, _⟩ => ⟨S1239040x1, .i32⟩
  | .hbm, ⟨34, _⟩ => ⟨S123904, .f32⟩
  | .hbm, ⟨35, _⟩ => ⟨S_, .f32⟩
  | .hbm, ⟨36, _⟩ => ⟨S123904, .f32⟩
  | .hbm, ⟨37, _⟩ => ⟨S123904, .f32⟩
  | .hbm, ⟨38, _⟩ => ⟨S123904x1, .f32⟩
  | .hbm, ⟨39, _⟩ => ⟨S123904x128, .f32⟩
  | .hbm, ⟨40, _⟩ => ⟨S123904x128, .f32⟩
  | .hbm, ⟨41, _⟩ => ⟨S123904x128, .f32⟩
  | .hbm, ⟨42, _⟩ => ⟨S1x128, .f32⟩
  | .hbm, ⟨43, _⟩ => ⟨S123904x128, .f32⟩
  | .hbm, ⟨44, _⟩ => ⟨S_, .i32⟩
  | .hbm, ⟨45, _⟩ => ⟨S112640, .i32⟩
  | .hbm, ⟨46, _⟩ => ⟨S112640, .i1⟩
  | .hbm, ⟨47, _⟩ => ⟨S_, .i32⟩
  | .hbm, ⟨48, _⟩ => ⟨S112640, .i32⟩
  | .hbm, ⟨49, _⟩ => ⟨S112640, .i32⟩
  | .hbm, ⟨50, _⟩ => ⟨S112640, .i32⟩
  | .hbm, ⟨51, _⟩ => ⟨S112640x1, .i32⟩
  | .hbm, ⟨52, _⟩ => ⟨S112640x128, .f32⟩
  | .hbm, ⟨53, _⟩ => ⟨S_, .f32⟩
  | .hbm, ⟨54, _⟩ => ⟨S11264x128, .f32⟩
  | .hbm, ⟨55, _⟩ => ⟨S112640x1, .i32⟩
  | .hbm, ⟨56, _⟩ => ⟨S11264x128, .f32⟩
  | .hbm, ⟨57, _⟩ => ⟨S_, .f32⟩
  | .hbm, ⟨58, _⟩ => ⟨S112640, .f32⟩
  | .hbm, ⟨59, _⟩ => ⟨S_, .f32⟩
  | .hbm, ⟨60, _⟩ => ⟨S11264, .f32⟩
  | .hbm, ⟨61, _⟩ => ⟨S112640x1, .i32⟩
  | .hbm, ⟨62, _⟩ => ⟨S11264, .f32⟩
  | .hbm, ⟨63, _⟩ => ⟨S_, .f32⟩
  | .hbm, ⟨64, _⟩ => ⟨S11264, .f32⟩
  | .hbm, ⟨65, _⟩ => ⟨S11264, .f32⟩
  | .hbm, ⟨66, _⟩ => ⟨S11264x1, .f32⟩
  | .hbm, ⟨67, _⟩ => ⟨S11264x128, .f32⟩
  | .hbm, ⟨68, _⟩ => ⟨S11264x128, .f32⟩
  | .hbm, ⟨69, _⟩ => ⟨S11264x128, .f32⟩
  | .hbm, ⟨70, _⟩ => ⟨S1x128, .f32⟩
  | .hbm, ⟨71, _⟩ => ⟨S11264x128, .f32⟩
  | .hbm, ⟨72, _⟩ => ⟨S_, .i32⟩
  | .hbm, ⟨73, _⟩ => ⟨S10240, .i32⟩
  | .hbm, ⟨74, _⟩ => ⟨S10240, .i1⟩
  | .hbm, ⟨75, _⟩ => ⟨S_, .i32⟩
  | .hbm, ⟨76, _⟩ => ⟨S10240, .i32⟩
  | .hbm, ⟨77, _⟩ => ⟨S10240, .i32⟩
  | .hbm, ⟨78, _⟩ => ⟨S10240, .i32⟩
  | .hbm, ⟨79, _⟩ => ⟨S10240x1, .i32⟩
  | .hbm, ⟨80, _⟩ => ⟨S10240x128, .f32⟩
  | .hbm, ⟨81, _⟩ => ⟨S_, .f32⟩
  | .hbm, ⟨82, _⟩ => ⟨S1024x128, .f32⟩
  | .hbm, ⟨83, _⟩ => ⟨S10240x1, .i32⟩
  | .hbm, ⟨84, _⟩ => ⟨S1024x128, .f32⟩
  | .hbm, ⟨85, _⟩ => ⟨S_, .f32⟩
  | .hbm, ⟨86, _⟩ => ⟨S10240, .f32⟩
  | .hbm, ⟨87, _⟩ => ⟨S_, .f32⟩
  | .hbm, ⟨88, _⟩ => ⟨S1024, .f32⟩
  | .hbm, ⟨89, _⟩ => ⟨S10240x1, .i32⟩
  | .hbm, ⟨90, _⟩ => ⟨S1024, .f32⟩
  | .hbm, ⟨91, _⟩ => ⟨S_, .f32⟩
  | .hbm, ⟨92, _⟩ => ⟨S1024, .f32⟩
  | .hbm, ⟨93, _⟩ => ⟨S1024, .f32⟩
  | .hbm, ⟨94, _⟩ => ⟨S1024x1, .f32⟩
  | .hbm, ⟨95, _⟩ => ⟨S1024x128, .f32⟩
  | .hbm, ⟨96, _⟩ => ⟨S1024x128, .f32⟩
  | .hbm, ⟨97, _⟩ => ⟨S1024x128, .f32⟩
  | .hbm, ⟨98, _⟩ => ⟨S1x128, .f32⟩
  | .hbm, ⟨99, _⟩ => ⟨S1024x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1024x128, .f32⟩
  | _, _ => ⟨S1362944x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_6 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_7 : Ref sig .tc := ⟨.hbm, 57, rfl⟩
abbrev main_v32 : Ref sig .tc := ⟨.hbm, 58, rfl⟩
abbrev main_cst_8 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_9 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_10 : Ref sig .tc := ⟨.hbm, 72, rfl⟩
abbrev main_v44 : Ref sig .tc := ⟨.hbm, 73, rfl⟩
abbrev main_v45 : Ref sig .tc := ⟨.hbm, 74, rfl⟩
abbrev main_c_11 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_12 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_13 : Ref sig .tc := ⟨.hbm, 85, rfl⟩
abbrev main_v54 : Ref sig .tc := ⟨.hbm, 86, rfl⟩
abbrev main_cst_14 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_15 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23

abbrev nD : Nat := 1
abbrev τ : Topo := Topo.v7x

variable {F : FTy → Type} [FloatOps F]

abbrev grid0 : Pipeline.Grid := ⟨1, ![121], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![11], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S1024x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S1024x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

class Facts₀ : Prop where
  bcast_S_S1239040 : S_.BroadcastsInDim S1239040 (![] : Fin 0 → Fin S1239040.rank)
  bcast_S1239040_S1239040x1_0 : S1239040.BroadcastsInDim S1239040x1 (![0] : Fin 1 → Fin S1239040x1.rank)
  bcast_S_S123904x128 : S_.BroadcastsInDim S123904x128 (![] : Fin 0 → Fin S123904x128.rank)
  bcast_S_S123904 : S_.BroadcastsInDim S123904 (![] : Fin 0 → Fin S123904.rank)
  bcast_S123904_S123904x1_0 : S123904.BroadcastsInDim S123904x1 (![0] : Fin 1 → Fin S123904x1.rank)
  bcast_S123904x1_S123904x128_0_1 : S123904x1.BroadcastsInDim S123904x128 (![0, 1] : Fin 2 → Fin S123904x128.rank)
  slices_S1362944x128_S123904x128_0_0 : S1362944x128.Slices ![0, 0] S123904x128
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  bcast_S_S112640 : S_.BroadcastsInDim S112640 (![] : Fin 0 → Fin S112640.rank)
  bcast_S112640_S112640x1_0 : S112640.BroadcastsInDim S112640x1 (![0] : Fin 1 → Fin S112640x1.rank)
  bcast_S_S11264x128 : S_.BroadcastsInDim S11264x128 (![] : Fin 0 → Fin S11264x128.rank)
  bcast_S_S11264 : S_.BroadcastsInDim S11264 (![] : Fin 0 → Fin S11264.rank)
  bcast_S11264_S11264x1_0 : S11264.BroadcastsInDim S11264x1 (![0] : Fin 1 → Fin S11264x1.rank)
  bcast_S11264x1_S11264x128_0_1 : S11264x1.BroadcastsInDim S11264x128 (![0, 1] : Fin 2 → Fin S11264x128.rank)
  slices_S123904x128_S11264x128_0_0 : S123904x128.Slices ![0, 0] S11264x128
  bcast_S_S10240 : S_.BroadcastsInDim S10240 (![] : Fin 0 → Fin S10240.rank)
  bcast_S10240_S10240x1_0 : S10240.BroadcastsInDim S10240x1 (![0] : Fin 1 → Fin S10240x1.rank)
  bcast_S_S1024x128 : S_.BroadcastsInDim S1024x128 (![] : Fin 0 → Fin S1024x128.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  slices_S11264x128_S1024x128_0_0 : S11264x128.Slices ![0, 0] S1024x128
  gather_S1362944x128_S1239040x1_S1239040x128_1_0_n_n_0_1_1128_wf : GatherDims.WF S1362944x128 S1239040x1 S1239040x128 [1] [0] [] [0] [] 1 ![1, 128]
  scatter_S123904x128_S1239040x1_S1239040x128_1_0_0_1_wf : ScatterDims.WF S123904x128 S1239040x1 S1239040x128 [1] [0] [0] 1
  scatter_S123904_S1239040x1_S1239040_n_0_0_1_wf : ScatterDims.WF S123904 S1239040x1 S1239040 [] [0] [0] 1
  dot_S1024x128_S128x128_S1024x128_1_0_0_1_n_n_wf : DotDims.WF S1024x128 S128x128 S1024x128 [1] [0] [0] [1] [] []
  gather_S123904x128_S112640x1_S112640x128_1_0_n_n_0_1_1128_wf : GatherDims.WF S123904x128 S112640x1 S112640x128 [1] [0] [] [0] [] 1 ![1, 128]
  scatter_S11264x128_S112640x1_S112640x128_1_0_0_1_wf : ScatterDims.WF S11264x128 S112640x1 S112640x128 [1] [0] [0] 1
  scatter_S11264_S112640x1_S112640_n_0_0_1_wf : ScatterDims.WF S11264 S112640x1 S112640 [] [0] [0] 1
  gather_S11264x128_S10240x1_S10240x128_1_0_n_n_0_1_1128_wf : GatherDims.WF S11264x128 S10240x1 S10240x128 [1] [0] [] [0] [] 1 ![1, 128]
  scatter_S1024x128_S10240x1_S10240x128_1_0_0_1_wf : ScatterDims.WF S1024x128 S10240x1 S10240x128 [1] [0] [0] 1
  scatter_S1024_S10240x1_S10240_n_0_0_1_wf : ScatterDims.WF S1024 S10240x1 S10240 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S123904x128.size a
  hwx0_0 : ∀ i : grid0.Coords, EltTy.bits .f32 = 32 ∨ (Rect.block (s := S123904x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S123904x128.size a
  hwx0_1 : ∀ i : grid0.Coords, EltTy.bits .f32 = 32 ∨ (Rect.block (s := S123904x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S123904x128.size a
  hwx0_5 : ∀ i : grid0.Coords, EltTy.bits .f32 = 32 ∨ (Rect.block (s := S123904x128) S1024x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S11264x128.size a
  hwx1_0 : ∀ i : grid1.Coords, EltTy.bits .f32 = 32 ∨ (Rect.block (s := S11264x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S11264x128.size a
  hwx1_1 : ∀ i : grid1.Coords, EltTy.bits .f32 = 32 ∨ (Rect.block (s := S11264x128) S1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x128.size a ≤ S11264x128.size a
  hwx1_5 : ∀ i : grid1.Coords, EltTy.bits .f32 = 32 ∨ (Rect.block (s := S11264x128) S1024x128.size (cc1_transform_5 i) (hinb1_5 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S1024x128.size a
  hwx2_0 : ∀ i : grid2.Coords, EltTy.bits .f32 = 32 ∨ (Rect.block (s := S1024x128) S1024x128.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S1024x128.size a
  hwx2_1 : ∀ i : grid2.Coords, EltTy.bits .f32 = 32 ∨ (Rect.block (s := S1024x128) S1024x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 1
  hreads2_5 : ∀ i i' : grid2.Coords, (∀ a, reads2_5 a = true → i a = i' a) → cc2_transform_5 i = cc2_transform_5 i'
  hinb2_5 : ∀ (i : grid2.Coords) a, (cc2_transform_5 i a + 1) * S1024x128.size a ≤ S1024x128.size a
  hwx2_5 : ∀ i : grid2.Coords, EltTy.bits .f32 = 32 ∨ (Rect.block (s := S1024x128) S1024x128.size (cc2_transform_5 i) (hinb2_5 i)).WholeWords (EltTy.packing .f32)

variable [Facts₀]

def gather_S1362944x128_S1239040x1_S1239040x128_1_0_n_n_0_1_1128 : GatherDims S1362944x128 S1239040x1 S1239040x128 where
  offsetDims := [1]
  collapsedSliceDims := [0]
  operandBatchingDims := []
  startIndicesBatchingDims := []
  startIndexMap := [0]
  indexVectorDim := 1
  sliceSizes := ![1, 128]
  wf := gather_S1362944x128_S1239040x1_S1239040x128_1_0_n_n_0_1_1128_wf
def scatter_S123904x128_S1239040x1_S1239040x128_1_0_0_1 : ScatterDims S123904x128 S1239040x1 S1239040x128 where
  updateWindowDims := [1]
  insertedWindowDims := [0]
  scatterDimsToOperandDims := [0]
  indexVectorDim := 1
  wf := scatter_S123904x128_S1239040x1_S1239040x128_1_0_0_1_wf
def scatter_S123904_S1239040x1_S1239040_n_0_0_1 : ScatterDims S123904 S1239040x1 S1239040 where
  updateWindowDims := []
  insertedWindowDims := [0]
  scatterDimsToOperandDims := [0]
  indexVectorDim := 1
  wf := scatter_S123904_S1239040x1_S1239040_n_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def gather_S123904x128_S112640x1_S112640x128_1_0_n_n_0_1_1128 : GatherDims S123904x128 S112640x1 S112640x128 where
  offsetDims := [1]
  collapsedSliceDims := [0]
  operandBatchingDims := []
  startIndicesBatchingDims := []
  startIndexMap := [0]
  indexVectorDim := 1
  sliceSizes := ![1, 128]
  wf := gather_S123904x128_S112640x1_S112640x128_1_0_n_n_0_1_1128_wf
def scatter_S11264x128_S112640x1_S112640x128_1_0_0_1 : ScatterDims S11264x128 S112640x1 S112640x128 where
  updateWindowDims := [1]
  insertedWindowDims := [0]
  scatterDimsToOperandDims := [0]
  indexVectorDim := 1
  wf := scatter_S11264x128_S112640x1_S112640x128_1_0_0_1_wf
def scatter_S11264_S112640x1_S112640_n_0_0_1 : ScatterDims S11264 S112640x1 S112640 where
  updateWindowDims := []
  insertedWindowDims := [0]
  scatterDimsToOperandDims := [0]
  indexVectorDim := 1
  wf := scatter_S11264_S112640x1_S112640_n_0_0_1_wf
def gather_S11264x128_S10240x1_S10240x128_1_0_n_n_0_1_1128 : GatherDims S11264x128 S10240x1 S10240x128 where
  offsetDims := [1]
  collapsedSliceDims := [0]
  operandBatchingDims := []
  startIndicesBatchingDims := []
  startIndexMap := [0]
  indexVectorDim := 1
  sliceSizes := ![1, 128]
  wf := gather_S11264x128_S10240x1_S10240x128_1_0_n_n_0_1_1128_wf
def scatter_S1024x128_S10240x1_S10240x128_1_0_0_1 : ScatterDims S1024x128 S10240x1 S10240x128 where
  updateWindowDims := [1]
  insertedWindowDims := [0]
  scatterDimsToOperandDims := [0]
  indexVectorDim := 1
  wf := scatter_S1024x128_S10240x1_S10240x128_1_0_0_1_wf
def scatter_S1024_S10240x1_S10240_n_0_0_1 : ScatterDims S1024 S10240x1 S10240 where
  updateWindowDims := []
  insertedWindowDims := [0]
  scatterDimsToOperandDims := [0]
  indexVectorDim := 1
  wf := scatter_S1024_S10240x1_S10240_n_0_0_1_wf

abbrev win0_0 : Pipeline.Window sig grid0 :=
  Pipeline.Window.ofSpec (Memref.whole main_v18) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1024x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v62) S1024x128.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_v63) S1024x128.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S1024x128.size cc2_transform_5 reads2_5 true false 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S1362944x128 : Shape := ⟨2, ![1362944, 128]⟩
abbrev S1239040 : Shape := ⟨1, ![1239040]⟩
abbrev S112640 : Shape := ⟨1, ![112640]⟩
abbrev S10240 : Shape := ⟨1, ![10240]⟩
abbrev S128x128 : Shape := ⟨2, ![128, 128]⟩
abbrev S128 : Shape := ⟨1, ![128]⟩
abbrev S_ : Shape := ⟨0, ![]⟩
abbrev S1239040x1 : Shape := ⟨2, ![1239040, 1]⟩
abbrev S1239040x128 : Shape := ⟨2, ![1239040, 128]⟩
abbrev S123904x128 : Shape := ⟨2, ![123904, 128]⟩
abbrev S123904 : Shape := ⟨1, ![123904]⟩
abbrev S123904x1 : Shape := ⟨2, ![123904, 1]⟩
abbrev S1x128 : Shape := ⟨2, ![1, 128]⟩
abbrev S112640x1 : Shape := ⟨2, ![112640, 1]⟩
abbrev S112640x128 : Shape := ⟨2, ![112640, 128]⟩
abbrev S11264x128 : Shape := ⟨2, ![11264, 128]⟩
abbrev S11264 : Shape := ⟨1, ![11264]⟩
abbrev S11264x1 : Shape := ⟨2, ![11264, 1]⟩
abbrev S10240x1 : Shape := ⟨2, ![10240, 1]⟩
abbrev S10240x128 : Shape := ⟨2, ![10240, 128]⟩
abbrev S1024x128 : Shape := ⟨2, ![1024, 128]⟩
abbrev S1024 : Shape := ⟨1, ![1024]⟩
abbrev S1024x1 : Shape := ⟨2, ![1024, 1]⟩

abbrev nBuf : Space → Nat
  | .hbm => 118
  | .vmem => 0
  | .smem => 0
  | _ => 0

abbrev bufTy : (tb : Table) → Fin (tcTables nBuf tb) → BufTy
  | .hbm, ⟨0, _⟩ => ⟨S1362944x128, .f32⟩
  | .hbm, ⟨1, _⟩ => ⟨S1239040, .i32⟩
  | .hbm, ⟨2, _⟩ => ⟨S1239040, .i32⟩
  | .hbm, ⟨3, _⟩ => ⟨S112640, .i32⟩
  | .hbm, ⟨4, _⟩ => ⟨S112640, .i32⟩
  | .hbm, ⟨5, _⟩ => ⟨S10240, .i32⟩
  | .hbm, ⟨6, _⟩ => ⟨S10240, .i32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S_, .i32⟩
  | .hbm, ⟨17, _⟩ => ⟨S1239040, .i32⟩
  | .hbm, ⟨18, _⟩ => ⟨S1239040, .i1⟩
  | .hbm, ⟨19, _⟩ => ⟨S_, .i32⟩
  | .hbm, ⟨20, _⟩ => ⟨S1239040, .i32⟩
  | .hbm, ⟨21, _⟩ => ⟨S1239040, .i32⟩
  | .hbm, ⟨22, _⟩ => ⟨S1239040, .i32⟩
  | .hbm, ⟨23, _⟩ => ⟨S1239040x1, .i32⟩
  | .hbm, ⟨24, _⟩ => ⟨S1239040x128, .f32⟩
  | .hbm, ⟨25, _⟩ => ⟨S_, .f32⟩
  | .hbm, ⟨26, _⟩ => ⟨S123904x128, .f32⟩
  | .hbm, ⟨27, _⟩ => ⟨S1239040x1, .i32⟩
  | .hbm, ⟨28, _⟩ => ⟨S123904x128, .f32⟩
  | .hbm, ⟨29, _⟩ => ⟨S_, .f32⟩
  | .hbm, ⟨30, _⟩ => ⟨S1239040, .f32⟩
  | .hbm, ⟨31, _⟩ => ⟨S_, .f32⟩
  | .hbm, ⟨32, _⟩ => ⟨S123904, .f32⟩
  | .hbm, ⟨33, _⟩ => ⟨S1239040x1, .i32⟩
  | .hbm, ⟨34, _⟩ => ⟨S123904, .f32⟩
  | .hbm, ⟨35, _⟩ => ⟨S_, .f32⟩
  | .hbm, ⟨36, _⟩ => ⟨S123904, .f32⟩
  | .hbm, ⟨37, _⟩ => ⟨S123904, .f32⟩
  | .hbm, ⟨38, _⟩ => ⟨S123904x1, .f32⟩
  | .hbm, ⟨39, _⟩ => ⟨S123904x128, .f32⟩
  | .hbm, ⟨40, _⟩ => ⟨S123904x128, .f32⟩
  | .hbm, ⟨41, _⟩ => ⟨S123904x128, .f32⟩
  | .hbm, ⟨42, _⟩ => ⟨S1x128, .f32⟩
  | .hbm, ⟨43, _⟩ => ⟨S123904x128, .f32⟩
  | .hbm, ⟨44, _⟩ => ⟨S123904x128, .f32⟩
  | .hbm, ⟨45, _⟩ => ⟨S123904x128, .f32⟩
  | .hbm, ⟨46, _⟩ => ⟨S123904x128, .f32⟩
  | .hbm, ⟨47, _⟩ => ⟨S123904x128, .f32⟩
  | .hbm, ⟨48, _⟩ => ⟨S_, .f32⟩
  | .hbm, ⟨49, _⟩ => ⟨S123904x128, .f32⟩
  | .hbm, ⟨50, _⟩ => ⟨S123904x128, .f32⟩
  | .hbm, ⟨51, _⟩ => ⟨S_, .i32⟩
  | .hbm, ⟨52, _⟩ => ⟨S112640, .i32⟩
  | .hbm, ⟨53, _⟩ => ⟨S112640, .i1⟩
  | .hbm, ⟨54, _⟩ => ⟨S_, .i32⟩
  | .hbm, ⟨55, _⟩ => ⟨S112640, .i32⟩
  | .hbm, ⟨56, _⟩ => ⟨S112640, .i32⟩
  | .hbm, ⟨57, _⟩ => ⟨S112640, .i32⟩
  | .hbm, ⟨58, _⟩ => ⟨S112640x1, .i32⟩
  | .hbm, ⟨59, _⟩ => ⟨S112640x128, .f32⟩
  | .hbm, ⟨60, _⟩ => ⟨S_, .f32⟩
  | .hbm, ⟨61, _⟩ => ⟨S11264x128, .f32⟩
  | .hbm, ⟨62, _⟩ => ⟨S112640x1, .i32⟩
  | .hbm, ⟨63, _⟩ => ⟨S11264x128, .f32⟩
  | .hbm, ⟨64, _⟩ => ⟨S_, .f32⟩
  | .hbm, ⟨65, _⟩ => ⟨S112640, .f32⟩
  | .hbm, ⟨66, _⟩ => ⟨S_, .f32⟩
  | .hbm, ⟨67, _⟩ => ⟨S11264, .f32⟩
  | .hbm, ⟨68, _⟩ => ⟨S112640x1, .i32⟩
  | .hbm, ⟨69, _⟩ => ⟨S11264, .f32⟩
  | .hbm, ⟨70, _⟩ => ⟨S_, .f32⟩
  | .hbm, ⟨71, _⟩ => ⟨S11264, .f32⟩
  | .hbm, ⟨72, _⟩ => ⟨S11264, .f32⟩
  | .hbm, ⟨73, _⟩ => ⟨S11264x1, .f32⟩
  | .hbm, ⟨74, _⟩ => ⟨S11264x128, .f32⟩
  | .hbm, ⟨75, _⟩ => ⟨S11264x128, .f32⟩
  | .hbm, ⟨76, _⟩ => ⟨S11264x128, .f32⟩
  | .hbm, ⟨77, _⟩ => ⟨S1x128, .f32⟩
  | .hbm, ⟨78, _⟩ => ⟨S11264x128, .f32⟩
  | .hbm, ⟨79, _⟩ => ⟨S11264x128, .f32⟩
  | .hbm, ⟨80, _⟩ => ⟨S11264x128, .f32⟩
  | .hbm, ⟨81, _⟩ => ⟨S11264x128, .f32⟩
  | .hbm, ⟨82, _⟩ => ⟨S11264x128, .f32⟩
  | .hbm, ⟨83, _⟩ => ⟨S_, .f32⟩
  | .hbm, ⟨84, _⟩ => ⟨S11264x128, .f32⟩
  | .hbm, ⟨85, _⟩ => ⟨S11264x128, .f32⟩
  | .hbm, ⟨86, _⟩ => ⟨S_, .i32⟩
  | .hbm, ⟨87, _⟩ => ⟨S10240, .i32⟩
  | .hbm, ⟨88, _⟩ => ⟨S10240, .i1⟩
  | .hbm, ⟨89, _⟩ => ⟨S_, .i32⟩
  | .hbm, ⟨90, _⟩ => ⟨S10240, .i32⟩
  | .hbm, ⟨91, _⟩ => ⟨S10240, .i32⟩
  | .hbm, ⟨92, _⟩ => ⟨S10240, .i32⟩
  | .hbm, ⟨93, _⟩ => ⟨S10240x1, .i32⟩
  | .hbm, ⟨94, _⟩ => ⟨S10240x128, .f32⟩
  | .hbm, ⟨95, _⟩ => ⟨S_, .f32⟩
  | .hbm, ⟨96, _⟩ => ⟨S1024x128, .f32⟩
  | .hbm, ⟨97, _⟩ => ⟨S10240x1, .i32⟩
  | .hbm, ⟨98, _⟩ => ⟨S1024x128, .f32⟩
  | .hbm, ⟨99, _⟩ => ⟨S_, .f32⟩
  | .hbm, ⟨100, _⟩ => ⟨S10240, .f32⟩
  | .hbm, ⟨101, _⟩ => ⟨S_, .f32⟩
  | .hbm, ⟨102, _⟩ => ⟨S1024, .f32⟩
  | .hbm, ⟨103, _⟩ => ⟨S10240x1, .i32⟩
  | .hbm, ⟨104, _⟩ => ⟨S1024, .f32⟩
  | .hbm, ⟨105, _⟩ => ⟨S_, .f32⟩
  | .hbm, ⟨106, _⟩ => ⟨S1024, .f32⟩
  | .hbm, ⟨107, _⟩ => ⟨S1024, .f32⟩
  | .hbm, ⟨108, _⟩ => ⟨S1024x1, .f32⟩
  | .hbm, ⟨109, _⟩ => ⟨S1024x128, .f32⟩
  | .hbm, ⟨110, _⟩ => ⟨S1024x128, .f32⟩
  | .hbm, ⟨111, _⟩ => ⟨S1024x128, .f32⟩
  | .hbm, ⟨112, _⟩ => ⟨S1x128, .f32⟩
  | .hbm, ⟨113, _⟩ => ⟨S1024x128, .f32⟩
  | .hbm, ⟨114, _⟩ => ⟨S1024x128, .f32⟩
  | .hbm, ⟨115, _⟩ => ⟨S1024x128, .f32⟩
  | .hbm, ⟨116, _⟩ => ⟨S1024x128, .f32⟩
  | .hbm, ⟨117, _⟩ => ⟨S1024x128, .f32⟩
  | _, _ => ⟨S1362944x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call0_cst : Ref sig .tc := ⟨.hbm, 48, rfl⟩
abbrev main_call0_v0 : Ref sig .tc := ⟨.hbm, 49, rfl⟩
abbrev main_v26 : Ref sig .tc := ⟨.hbm, 50, rfl⟩
abbrev main_c_4 : Ref sig .tc := ⟨.hbm, 51, rfl⟩
abbrev main_v27 : Ref sig .tc := ⟨.hbm, 52, rfl⟩
abbrev main_v28 : Ref sig .tc := ⟨.hbm, 53, rfl⟩
abbrev main_c_5 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_6 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_7 : Ref sig .tc := ⟨.hbm, 64, rfl⟩
abbrev main_v37 : Ref sig .tc := ⟨.hbm, 65, rfl⟩
abbrev main_cst_8 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_9 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call1_cst : Ref sig .tc := ⟨.hbm, 83, rfl⟩
abbrev main_call1_v0 : Ref sig .tc := ⟨.hbm, 84, rfl⟩
abbrev main_v53 : Ref sig .tc := ⟨.hbm, 85, rfl⟩
abbrev main_c_10 : Ref sig .tc := ⟨.hbm, 86, rfl⟩
abbrev main_v54 : Ref sig .tc := ⟨.hbm, 87, rfl⟩
abbrev main_v55 : Ref sig .tc := ⟨.hbm, 88, rfl⟩
abbrev main_c_11 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_12 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_13 : Ref sig .tc := ⟨.hbm, 99, rfl⟩
abbrev main_v64 : Ref sig .tc := ⟨.hbm, 100, rfl⟩
abbrev main_cst_14 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_15 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩

abbrev nD : Nat := 1
abbrev τ : Topo := Topo.v7x

variable {F : FTy → Type} [FloatOps F]

class Facts₀ : Prop where
  bcast_S_S1239040 : S_.BroadcastsInDim S1239040 (![] : Fin 0 → Fin S1239040.rank)
  bcast_S1239040_S1239040x1_0 : S1239040.BroadcastsInDim S1239040x1 (![0] : Fin 1 → Fin S1239040x1.rank)
  bcast_S_S123904x128 : S_.BroadcastsInDim S123904x128 (![] : Fin 0 → Fin S123904x128.rank)
  bcast_S_S123904 : S_.BroadcastsInDim S123904 (![] : Fin 0 → Fin S123904.rank)
  bcast_S123904_S123904x1_0 : S123904.BroadcastsInDim S123904x1 (![0] : Fin 1 → Fin S123904x1.rank)
  bcast_S123904x1_S123904x128_0_1 : S123904x1.BroadcastsInDim S123904x128 (![0, 1] : Fin 2 → Fin S123904x128.rank)
  bcast_S128_S1x128_1 : S128.BroadcastsInDim S1x128 (![1] : Fin 1 → Fin S1x128.rank)
  bcast_S1x128_S123904x128_0_1 : S1x128.BroadcastsInDim S123904x128 (![0, 1] : Fin 2 → Fin S123904x128.rank)
  slices_S1362944x128_S123904x128_0_0 : S1362944x128.Slices ![0, 0] S123904x128
  bcast_S_S112640 : S_.BroadcastsInDim S112640 (![] : Fin 0 → Fin S112640.rank)
  bcast_S112640_S112640x1_0 : S112640.BroadcastsInDim S112640x1 (![0] : Fin 1 → Fin S112640x1.rank)
  bcast_S_S11264x128 : S_.BroadcastsInDim S11264x128 (![] : Fin 0 → Fin S11264x128.rank)
  bcast_S_S11264 : S_.BroadcastsInDim S11264 (![] : Fin 0 → Fin S11264.rank)
  bcast_S11264_S11264x1_0 : S11264.BroadcastsInDim S11264x1 (![0] : Fin 1 → Fin S11264x1.rank)
  bcast_S11264x1_S11264x128_0_1 : S11264x1.BroadcastsInDim S11264x128 (![0, 1] : Fin 2 → Fin S11264x128.rank)
  bcast_S1x128_S11264x128_0_1 : S1x128.BroadcastsInDim S11264x128 (![0, 1] : Fin 2 → Fin S11264x128.rank)
  slices_S123904x128_S11264x128_0_0 : S123904x128.Slices ![0, 0] S11264x128
  bcast_S_S10240 : S_.BroadcastsInDim S10240 (![] : Fin 0 → Fin S10240.rank)
  bcast_S10240_S10240x1_0 : S10240.BroadcastsInDim S10240x1 (![0] : Fin 1 → Fin S10240x1.rank)
  bcast_S_S1024x128 : S_.BroadcastsInDim S1024x128 (![] : Fin 0 → Fin S1024x128.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  bcast_S1x128_S1024x128_0_1 : S1x128.BroadcastsInDim S1024x128 (![0, 1] : Fin 2 → Fin S1024x128.rank)
  slices_S11264x128_S1024x128_0_0 : S11264x128.Slices ![0, 0] S1024x128
  gather_S1362944x128_S1239040x1_S1239040x128_1_0_n_n_0_1_1128_wf : GatherDims.WF S1362944x128 S1239040x1 S1239040x128 [1] [0] [] [0] [] 1 ![1, 128]
  scatter_S123904x128_S1239040x1_S1239040x128_1_0_0_1_wf : ScatterDims.WF S123904x128 S1239040x1 S1239040x128 [1] [0] [0] 1
  scatter_S123904_S1239040x1_S1239040_n_0_0_1_wf : ScatterDims.WF S123904 S1239040x1 S1239040 [] [0] [0] 1
  dot_S123904x128_S128x128_S123904x128_1_0_0_1_n_n_wf : DotDims.WF S123904x128 S128x128 S123904x128 [1] [0] [0] [1] [] []
  gather_S123904x128_S112640x1_S112640x128_1_0_n_n_0_1_1128_wf : GatherDims.WF S123904x128 S112640x1 S112640x128 [1] [0] [] [0] [] 1 ![1, 128]
  scatter_S11264x128_S112640x1_S112640x128_1_0_0_1_wf : ScatterDims.WF S11264x128 S112640x1 S112640x128 [1] [0] [0] 1
  scatter_S11264_S112640x1_S112640_n_0_0_1_wf : ScatterDims.WF S11264 S112640x1 S112640 [] [0] [0] 1
  dot_S11264x128_S128x128_S11264x128_1_0_0_1_n_n_wf : DotDims.WF S11264x128 S128x128 S11264x128 [1] [0] [0] [1] [] []
  gather_S11264x128_S10240x1_S10240x128_1_0_n_n_0_1_1128_wf : GatherDims.WF S11264x128 S10240x1 S10240x128 [1] [0] [] [0] [] 1 ![1, 128]
  scatter_S1024x128_S10240x1_S10240x128_1_0_0_1_wf : ScatterDims.WF S1024x128 S10240x1 S10240x128 [1] [0] [0] 1
  scatter_S1024_S10240x1_S10240_n_0_0_1_wf : ScatterDims.WF S1024 S10240x1 S10240 [] [0] [0] 1
  dot_S1024x128_S128x128_S1024x128_1_0_0_1_n_n_wf : DotDims.WF S1024x128 S128x128 S1024x128 [1] [0] [0] [1] [] []

variable [Facts₀]

def gather_S1362944x128_S1239040x1_S1239040x128_1_0_n_n_0_1_1128 : GatherDims S1362944x128 S1239040x1 S1239040x128 where
  offsetDims := [1]
  collapsedSliceDims := [0]
  operandBatchingDims := []
  startIndicesBatchingDims := []
  startIndexMap := [0]
  indexVectorDim := 1
  sliceSizes := ![1, 128]
  wf := gather_S1362944x128_S1239040x1_S1239040x128_1_0_n_n_0_1_1128_wf
def scatter_S123904x128_S1239040x1_S1239040x128_1_0_0_1 : ScatterDims S123904x128 S1239040x1 S1239040x128 where
  updateWindowDims := [1]
  insertedWindowDims := [0]
  scatterDimsToOperandDims := [0]
  indexVectorDim := 1
  wf := scatter_S123904x128_S1239040x1_S1239040x128_1_0_0_1_wf
def scatter_S123904_S1239040x1_S1239040_n_0_0_1 : ScatterDims S123904 S1239040x1 S1239040 where
  updateWindowDims := []
  insertedWindowDims := [0]
  scatterDimsToOperandDims := [0]
  indexVectorDim := 1
  wf := scatter_S123904_S1239040x1_S1239040_n_0_0_1_wf
def dot_S123904x128_S128x128_S123904x128_1_0_0_1_n_n : DotDims S123904x128 S128x128 S123904x128 where
  lhsContracting := [1]
  rhsContracting := [0]
  lhsNonContracting := [0]
  rhsNonContracting := [1]
  lhsBatch := []
  rhsBatch := []
  wf := dot_S123904x128_S128x128_S123904x128_1_0_0_1_n_n_wf
def gather_S123904x128_S112640x1_S112640x128_1_0_n_n_0_1_1128 : GatherDims S123904x128 S112640x1 S112640x128 where
  offsetDims := [1]
  collapsedSliceDims := [0]
  operandBatchingDims := []
  startIndicesBatchingDims := []
  startIndexMap := [0]
  indexVectorDim := 1
  sliceSizes := ![1, 128]
  wf := gather_S123904x128_S112640x1_S112640x128_1_0_n_n_0_1_1128_wf
def scatter_S11264x128_S112640x1_S112640x128_1_0_0_1 : ScatterDims S11264x128 S112640x1 S112640x128 where
  updateWindowDims := [1]
  insertedWindowDims := [0]
  scatterDimsToOperandDims := [0]
  indexVectorDim := 1
  wf := scatter_S11264x128_S112640x1_S112640x128_1_0_0_1_wf
def scatter_S11264_S112640x1_S112640_n_0_0_1 : ScatterDims S11264 S112640x1 S112640 where
  updateWindowDims := []
  insertedWindowDims := [0]
  scatterDimsToOperandDims := [0]
  indexVectorDim := 1
  wf := scatter_S11264_S112640x1_S112640_n_0_0_1_wf
def dot_S11264x128_S128x128_S11264x128_1_0_0_1_n_n : DotDims S11264x128 S128x128 S11264x128 where
  lhsContracting := [1]
  rhsContracting := [0]
  lhsNonContracting := [0]
  rhsNonContracting := [1]
  lhsBatch := []
  rhsBatch := []
  wf := dot_S11264x128_S128x128_S11264x128_1_0_0_1_n_n_wf
def gather_S11264x128_S10240x1_S10240x128_1_0_n_n_0_1_1128 : GatherDims S11264x128 S10240x1 S10240x128 where
  offsetDims := [1]
  collapsedSliceDims := [0]
  operandBatchingDims := []
  startIndicesBatchingDims := []
  startIndexMap := [0]
  indexVectorDim := 1
  sliceSizes := ![1, 128]
  wf := gather_S11264x128_S10240x1_S10240x128_1_0_n_n_0_1_1128_wf
def scatter_S1024x128_S10240x1_S10240x128_1_0_0_1 : ScatterDims S1024x128 S10240x1 S10240x128 where
  updateWindowDims := [1]
  insertedWindowDims := [0]
  scatterDimsToOperandDims := [0]
  indexVectorDim := 1
  wf := scatter_S1024x128_S10240x1_S10240x128_1_0_0_1_wf
def scatter_S1024_S10240x1_S10240_n_0_0_1 : ScatterDims S1024 S10240x1 S10240 where
  updateWindowDims := []
  insertedWindowDims := [0]
  scatterDimsToOperandDims := [0]
  indexVectorDim := 1
  wf := scatter_S1024_S10240x1_S10240_n_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

class Facts : Prop extends Facts₀ where

variable [Facts]
-- ==== Proof.KernelRun.lean ====
/-
  The idealized kernel's run, keeping what every buffer holds at the end.

  @main is six segments: three stretches of host operations, each followed by one pipelined region.  Folding the
  segments from the launch memory gives the contents of every buffer at each boundary; the last boundary's contents
  are `Gen.W6`.  Every weakly fair execution terminates without a fault in a memory whose unscoped buffers hold
  exactly those contents.  The argument arrays are among them and read back to the launch memory; the result array
  is among them too, and the modules on the layers say what it holds.
-/
import proofs.«171831_j46153718563001_1_alg».proof.Proof.Gen.KernelIdeal.Frame

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at
    the contents the fold through the six segments ends with. -/
theorem every_buffer : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The result array and the sixteen argument arrays at the end of the run: the result at the last boundary's
    contents, the arguments as launched. -/
theorem result_and_arguments : θ_run defs (onTc (τ := τ) (main (F := F))) ⟨m, fun _ => 0, ρ⟩ (fun r => ∀ c : Dev nD,
      r.2.mem ((c.tc : Thread nD τ).loc main_v65) = W6 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
      ⟨h c _ (mem_uc main_v65 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c)⟩)
    (every_buffer m ρ)

end Cert.KernelIdeal.Run

end
-- ==== Proof.LibRowColumn.lean ====
/-
  Row-by-column products on the extended reals.

  For a contraction whose dimension numbers say "rows of the left operand against columns of the right" — one
  contracted axis, the left's second and the right's first, no batch axis — both the accumulating matrix product of a
  kernel (into a zero accumulator) and the host's general dot product, read at the output entry (r, c), are the plain
  sum over k of left (r, k) times right (k, c).  The four hypotheses say exactly that about the dimension numbers'
  operand indices; they hold by computation for each concrete record.
-/
import Idealize.ShloMosaic.PureOps.Ideal.Laws
import Idealize.ShloMosaic.Lib.ValueIdx

noncomputable section

namespace Cert.Lib.RowColumn

open Idealize.ShloMosaic Idealize.ShloMosaic.ValueIdx

variable {M K N : Nat} {φ₁ φ₂ : FTy}

/-- The operand indices of a rows-against-columns contraction, re-indexed by the one contracted coordinate. -/
theorem operand_indices (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (i : (⟨2, ![M, N]⟩ : Shape).Idx) (k : Fin K) :
    d.lhsIdx i ((contrEquiv1 d K hr hs).symm k) = ix2 (i 0) k ∧ d.rhsIdx i ((contrEquiv1 d K hr hs).symm k) = ix2 k (i 1) := by
  have hk := contrEquiv1_symm_val d K hr hs k
  refine ⟨funext fun a => Fin.ext ?_, funext fun a => Fin.ext ?_⟩
  · match a with
    | ⟨0, _⟩ => exact h1 _ _
    | ⟨1, _⟩ => exact (h2 _ _).trans hk
  · match a with
    | ⟨0, _⟩ => exact (h3 _ _).trans hk
    | ⟨1, _⟩ => exact h4 _ _

/-- The host's general dot product at an entry is the sum of the row's products with the column. -/
theorem dotGeneral_entry (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision) (sched : HostSchedule)
    (x : FVec Ideal (⟨2, ![M, K]⟩ : Shape) φ₁) (w : FVec Ideal (⟨2, ![K, N]⟩ : Shape) φ₂) (i : (⟨2, ![M, N]⟩ : Shape).Idx) :
    FloatOps.dotGeneral d prec sched x w i = ∑ k : Fin K, x (ix2 (i 0) k) * w (ix2 k (i 1)) := by
  rw [Ideal.dotGeneral_apply, ← Equiv.sum_comp (contrEquiv1 d K hr hs).symm]
  refine Finset.sum_congr rfl fun k _ => ?_
  obtain ⟨el, er⟩ := operand_indices d hr hs h1 h2 h3 h4 i k
  rw [el, er]
  rfl

/-- A kernel's matrix product into the zero accumulator, at an entry, is the same sum. -/
theorem matmul_zero_entry (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision)
    (x : FVec Ideal (⟨2, ![M, K]⟩ : Shape) φ₁) (w : FVec Ideal (⟨2, ![K, N]⟩ : Shape) φ₂) (i : (⟨2, ![M, N]⟩ : Shape).Idx) :
    FloatOps.matmul d prec x w (constant (F := Ideal) (⟨2, ![M, N]⟩ : Shape) .f32 0x00000000#32) i
      = ∑ k : Fin K, x (ix2 (i 0) k) * w (ix2 k (i 1)) := by
  rw [Ideal.matmul_constant_zero_apply, ← Equiv.sum_comp (contrEquiv1 d K hr hs).symm]
  refine Finset.sum_congr rfl fun k _ => ?_
  obtain ⟨el, er⟩ := operand_indices d hr hs h1 h2 h3 h4 i k
  rw [el, er]
  rfl

/-- The whole row-by-column product of an [M, K] array and a [K, N] array, entry by entry. -/
def rowsTimes (x : (⟨2, ![M, K]⟩ : Shape).Idx → EReal) (w : (⟨2, ![K, N]⟩ : Shape).Idx → EReal) : (⟨2, ![M, N]⟩ : Shape).Idx → EReal :=
  fun i => ∑ k : Fin K, x (ix2 (i 0) k) * w (ix2 k (i 1))

/-- The host's general dot product of two whole arrays IS their row-by-column product. -/
theorem dotGeneral_eq_rowsTimes (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision) (sched : HostSchedule)
    (x : FVec Ideal (⟨2, ![M, K]⟩ : Shape) φ₁) (w : FVec Ideal (⟨2, ![K, N]⟩ : Shape) φ₂) :
    FloatOps.dotGeneral d prec sched x w = rowsTimes (M := M) (K := K) (N := N) x w :=
  funext fun i => dotGeneral_entry d hr hs h1 h2 h3 h4 prec sched x w i

/-- A kernel's matrix product of two whole blocks into the zero accumulator IS their row-by-column product. -/
theorem matmul_zero_eq_rowsTimes (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision)
    (x : FVec Ideal (⟨2, ![M, K]⟩ : Shape) φ₁) (w : FVec Ideal (⟨2, ![K, N]⟩ : Shape) φ₂) :
    FloatOps.matmul d prec x w (constant (F := Ideal) (⟨2, ![M, N]⟩ : Shape) .f32 0x00000000#32)
      = rowsTimes (M := M) (K := K) (N := N) x w :=
  funext fun i => matmul_zero_entry d hr hs h1 h2 h3 h4 prec x w i

end Cert.Lib.RowColumn

end
-- ==== Proof.SageLayer.lean ====
/-
  One layer of a mean-aggregating graph convolution, as a function of whole arrays of extended reals.

  From the neighbour means `mean` and the nodes' own features `own` (both [N, 128]), two weight matrices
  [128, 128] and a bias of 128 entries, the layer's output at (r, c) is

      σ ( (Σ_k mean (r, k) · Wl (k, c) + bias c) + Σ_k own (r, k) · Wr (k, c) ),

  where σ is the positive part max (·, 0) or the identity.  Two facts about this function are all the two programs'
  comparison needs.  First, adding the bias after both products, (Σ + Σ) + bias, gives the same number: addition of
  extended reals is commutative and associative, so nothing has to be finite.  Second, the output's row r depends on
  row r of `mean` and of `own` only, so a block of consecutive rows of the output is the same layer applied to that
  block of rows of the two inputs.
-/
import Idealize.ShloMosaic.PureOps.Ideal.Laws
import Idealize.ShloMosaic.Lib.ValueIdx
import proofs.«171831_j46153718563001_1_alg».proof.Proof.LibRowColumn

noncomputable section

namespace Cert.Sage

open Idealize.ShloMosaic Idealize.ShloMosaic.ValueIdx Cert.Lib.RowColumn

/-- The activation: the positive part, or the identity.  The zero it compares with is the f32 zero word read as an
    extended real; both programs spell that same word, so it is never evaluated. -/
def act (relu : Bool) (v : EReal) : EReal :=
  if relu then max v (Ideal.ofBits .f32 0x00000000#32) else v

/-- The layer's output, entry by entry. -/
def layer {N : Nat} (relu : Bool) (mean own : (⟨2, ![N, 128]⟩ : Shape).Idx → EReal)
    (Wl Wr : (⟨2, ![128, 128]⟩ : Shape).Idx → EReal) (bias : Fin 128 → EReal) : (⟨2, ![N, 128]⟩ : Shape).Idx → EReal :=
  fun i => act relu ((rowsTimes mean Wl i + bias (i 1)) + rowsTimes own Wr i)

/-- The layer at the entry (r, c), with the two products written out. -/
theorem layer_entry {N : Nat} (relu : Bool) (mean own : (⟨2, ![N, 128]⟩ : Shape).Idx → EReal)
    (Wl Wr : (⟨2, ![128, 128]⟩ : Shape).Idx → EReal) (bias : Fin 128 → EReal) (r : Fin N) (c : Fin 128) :
    layer relu mean own Wl Wr bias (ix2 r c)
      = act relu (((∑ k : Fin 128, mean (ix2 r k) * Wl (ix2 k c)) + bias c) + ∑ k : Fin 128, own (ix2 r k) * Wr (ix2 k c)) := rfl

/-- The bias may be added last: (Σ + Σ') + b = (Σ + b) + Σ' on the extended reals. -/
theorem bias_last {N : Nat} (relu : Bool) (mean own : (⟨2, ![N, 128]⟩ : Shape).Idx → EReal)
    (Wl Wr : (⟨2, ![128, 128]⟩ : Shape).Idx → EReal) (bias : Fin 128 → EReal) (r : Fin N) (c : Fin 128) :
    act relu ((rowsTimes mean Wl (ix2 r c) + rowsTimes own Wr (ix2 r c)) + bias c)
      = layer relu mean own Wl Wr bias (ix2 r c) := by
  rw [add_right_comm]
  rfl

/-- Row p of the layer of a block of rows is row r of the layer of the whole arrays, when row p of each block is row
    r of its array. -/
theorem layer_rows {N B : Nat} (relu : Bool) (mean own : (⟨2, ![N, 128]⟩ : Shape).Idx → EReal)
    (bmean bown : (⟨2, ![B, 128]⟩ : Shape).Idx → EReal)
    (Wl Wr : (⟨2, ![128, 128]⟩ : Shape).Idx → EReal) (bias : Fin 128 → EReal) (r : Fin N) (p : Fin B) (c : Fin 128)
    (hm : ∀ k : Fin 128, bmean (ix2 p k) = mean (ix2 r k)) (ho : ∀ k : Fin 128, bown (ix2 p k) = own (ix2 r k)) :
    layer relu bmean bown Wl Wr bias (ix2 p c) = layer relu mean own Wl Wr bias (ix2 r c) := by
  rw [layer_entry, layer_entry]
  simp only [hm, ho]

/-- The same for a block and an array entry given by their indices: entry j of the layer of a block of rows is entry i of
    the layer of the whole arrays when row j₀ of each row block is row i₀ of its array, the weights and the bias row
    are the arrays' own, and j and i name the same column.  The bias is kept as one row [1, 128]. -/
theorem layer_block {N B : Nat} (relu : Bool) (mean own : (⟨2, ![N, 128]⟩ : Shape).Idx → EReal)
    (Wl Wr : (⟨2, ![128, 128]⟩ : Shape).Idx → EReal) (brow : (⟨2, ![1, 128]⟩ : Shape).Idx → EReal)
    (bmean bown : (⟨2, ![B, 128]⟩ : Shape).Idx → EReal)
    (bWl bWr : (⟨2, ![128, 128]⟩ : Shape).Idx → EReal) (bbrow : (⟨2, ![1, 128]⟩ : Shape).Idx → EReal)
    (j : (⟨2, ![B, 128]⟩ : Shape).Idx) (i : (⟨2, ![N, 128]⟩ : Shape).Idx)
    (hm : ∀ k : Fin 128, bmean (ix2 (j 0) k) = mean (ix2 (i 0) k))
    (ho : ∀ k : Fin 128, bown (ix2 (j 0) k) = own (ix2 (i 0) k))
    (hl : bWl = Wl) (hr : bWr = Wr) (hb : ∀ q : Fin 128, bbrow (ix2 (0 : Fin 1) q) = brow (ix2 (0 : Fin 1) q))
    (hc : (j 1).val = (i 1).val) :
    layer relu bmean bown bWl bWr (fun q => bbrow (ix2 (0 : Fin 1) q)) j
      = layer relu mean own Wl Wr (fun q => brow (ix2 (0 : Fin 1) q)) i := by
  obtain ⟨p, c, rfl⟩ : ∃ (p : Fin B) (c : Fin 128), j = ix2 p c := ⟨j 0, j 1, eq_ix2 j⟩
  obtain ⟨r, c', rfl⟩ : ∃ (r : Fin N) (c' : Fin 128), i = ix2 r c' := ⟨i 0, i 1, eq_ix2 i⟩
  obtain rfl : c = c' := Fin.ext hc
  subst hl hr
  rw [show (fun q => bbrow (ix2 (0 : Fin 1) q)) = fun q => brow (ix2 (0 : Fin 1) q) from funext hb]
  exact layer_rows relu mean own bmean bown bWl bWr _ r p c hm ho

end Cert.Sage

end
-- ==== Proof.BlockLayer.lean ====
/-
  What the kernel body computes on one block.

  At a grid point the body loads a block of 1024 rows of the neighbour means and of the nodes' own features, the two
  whole 128 × 128 weight matrices and the bias kept as one row [1, 128]; it rounds the four matrix operands to bf16
  (the identity on extended reals), forms the two row-by-column products into zero accumulators, adds them, adds the
  bias row repeated down the rows, and (in the first two layers) takes the positive part.  Entry by entry that is the
  graph-convolution layer of the block's rows with the bias added last, hence the layer itself.
-/
import proofs.«171831_j46153718563001_1_alg».proof.Proof.Gen.KernelIdeal.Skeleton
import proofs.«171831_j46153718563001_1_alg».proof.Proof.SageLayer
import Idealize.ShloMosaic.Lib.Pipeline.Value
import Idealize.ShloMosaic.Lib.ValueLayout

noncomputable section

namespace Cert.KernelIdeal.Block

open Idealize.ShloMosaic Idealize.ShloMosaic.ValueIdx Cert.KernelIdeal Cert.KernelIdeal.Gen Cert.Lib.RowColumn

/-! ## The body's contraction is rows against columns -/

theorem contr_rank : dot_S1024x128_S128x128_S1024x128_1_0_0_1_n_n.contr.rank = 1 := rfl
theorem contr_size : dot_S1024x128_S128x128_S1024x128_1_0_0_1_n_n.contr.size ⟨0, by decide⟩ = 128 := rfl

theorem lhs_row (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide),
    dif_pos (show (0 : Fin S1024x128.rank) ∈ dot_S1024x128_S128x128_S1024x128_1_0_0_1_n_n.lhsNonContracting by decide)]
  rfl
theorem lhs_contr (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs_contr (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs_col (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide),
    dif_pos (show (1 : Fin S128x128.rank) ∈ dot_S1024x128_S128x128_S1024x128_1_0_0_1_n_n.rhsNonContracting by decide)]
  rfl

/-- The body's product of a block with a weight matrix, both rounded to bf16, into the zero accumulator: their
    row-by-column product. -/
theorem product (x : FVec Ideal S1024x128 .f32) (w : FVec Ideal S128x128 .f32) :
    matmul dot_S1024x128_S128x128_S1024x128_1_0_0_1_n_n none
        (truncf .bf16 (shapeCast S1024x128 x shapeCasts_S1024x128_S1024x128) bitsLt_bf16_f32)
        (truncf .bf16 w bitsLt_bf16_f32) (constant (F := Ideal) S1024x128 .f32 0x00000000#32)
      = rowsTimes (M := 1024) (K := 128) (N := 128) x w := by
  rw [shapeCast_self]
  exact matmul_zero_eq_rowsTimes dot_S1024x128_S128x128_S1024x128_1_0_0_1_n_n contr_rank contr_size
    lhs_row lhs_contr rhs_contr rhs_col none (φ₁ := .bf16) (φ₂ := .bf16) x w

/-- The bias row repeated down the block's rows, at (p, c): the row's entry c. -/
theorem bias_rows (b : FVec Ideal S1x128 .f32) (p : Fin 1024) (c : Fin 128) :
    broadcastTo S1024x128 (shapeCast S1x128 b shapeCasts_S1x128_S1x128) broadcasts_S1x128_S1024x128 (ix2 p c)
      = b (ix2 (0 : Fin 1) c) := by
  rw [shapeCast_self]
  exact broadcastTo_1b_ab_apply b broadcasts_S1x128_S1024x128 p c

/-! ## The body's stored value -/

/-- Without the activation (the last layer's body). -/
theorem plain (x0 x1 : Vec Ideal S1024x128 .f32) (x2 x4 : Vec Ideal S128x128 .f32) (x3 : Vec Ideal S1x128 .f32) :
    k2_pay1 (F := Ideal) x0 x1 x2 x4 x3
      = Cert.Sage.layer (N := 1024) false x0 x1 x2 x4 (fun c => x3 (ix2 (0 : Fin 1) c)) := by
  funext j
  obtain ⟨p, c, rfl⟩ : ∃ (p : Fin 1024) (c : Fin 128), j = ix2 p c := ⟨j 0, j 1, eq_ix2 j⟩
  refine Eq.trans ?_ (Cert.Sage.bias_last false x0 x1 x2 x4 (fun c => x3 (ix2 (0 : Fin 1) c)) p c)
  unfold k2_pay1
  show (matmul dot_S1024x128_S128x128_S1024x128_1_0_0_1_n_n none
          (truncf .bf16 (shapeCast S1024x128 x0 shapeCasts_S1024x128_S1024x128) bitsLt_bf16_f32)
          (truncf .bf16 x2 bitsLt_bf16_f32) (constant (F := Ideal) S1024x128 .f32 0x00000000#32) (ix2 p c)
        + matmul dot_S1024x128_S128x128_S1024x128_1_0_0_1_n_n none
          (truncf .bf16 (shapeCast S1024x128 x1 shapeCasts_S1024x128_S1024x128) bitsLt_bf16_f32)
          (truncf .bf16 x4 bitsLt_bf16_f32) (constant (F := Ideal) S1024x128 .f32 0x00000000#32) (ix2 p c))
        + broadcastTo S1024x128 (shapeCast S1x128 x3 shapeCasts_S1x128_S1x128) broadcasts_S1x128_S1024x128 (ix2 p c)
      = (rowsTimes (M := 1024) (K := 128) (N := 128) x0 x2 (ix2 p c) + rowsTimes (M := 1024) (K := 128) (N := 128) x1 x4 (ix2 p c)) + x3 (ix2 (0 : Fin 1) c)
  rw [product x0 x2, product x1 x4, bias_rows x3 p c]

/-- With the positive part (the first two layers' bodies, which are one term). -/
theorem relu (x0 x1 : Vec Ideal S1024x128 .f32) (x2 x4 : Vec Ideal S128x128 .f32) (x3 : Vec Ideal S1x128 .f32) :
    k0_pay1 (F := Ideal) x0 x1 x2 x4 x3
      = Cert.Sage.layer (N := 1024) true x0 x1 x2 x4 (fun c => x3 (ix2 (0 : Fin 1) c)) := by
  funext j
  obtain ⟨p, c, rfl⟩ : ∃ (p : Fin 1024) (c : Fin 128), j = ix2 p c := ⟨j 0, j 1, eq_ix2 j⟩
  refine Eq.trans ?_ (Cert.Sage.bias_last true x0 x1 x2 x4 (fun c => x3 (ix2 (0 : Fin 1) c)) p c)
  show max (k2_pay1 (F := Ideal) x0 x1 x2 x4 x3 (ix2 p c)) (Ideal.ofBits .f32 0x00000000#32) = _
  rw [plain x0 x1 x2 x4 x3, ← Cert.Sage.bias_last false x0 x1 x2 x4 (fun c => x3 (ix2 (0 : Fin 1) c)) p c]
  rfl

/-- The second layer's body is the first's. -/
theorem relu' (x0 x1 : Vec Ideal S1024x128 .f32) (x2 x4 : Vec Ideal S128x128 .f32) (x3 : Vec Ideal S1x128 .f32) :
    k1_pay1 (F := Ideal) x0 x1 x2 x4 x3
      = Cert.Sage.layer (N := 1024) true x0 x1 x2 x4 (fun c => x3 (ix2 (0 : Fin 1) c)) :=
  relu x0 x1 x2 x4 x3

end Cert.KernelIdeal.Block

end
-- ==== Proof.Layer0.lean ====
/-
  Layer 0's region, whatever the buffers hold when it is entered.

  The region runs the body at 121 grid points.  At point t the body sees rows 1024·t … 1024·t + 1023 of the
  neighbour means and of the target nodes' own rows, the two whole weight matrices and the whole bias row, and writes
  back the same rows of the output.  The body's block is the graph-convolution layer of the rows it sees, a layer's
  row depends on the same row of its two row inputs only, and the row blocks cover the output.  So after the region
  the output array is the layer of the five arrays as the region found them.
-/
import proofs.«171831_j46153718563001_1_alg».proof.Proof.Gen.KernelIdeal.Frame
import proofs.«171831_j46153718563001_1_alg».proof.Proof.BlockLayer
import Idealize.ShloMosaic.Lib.Pipeline.Value

noncomputable section

namespace Cert.KernelIdeal.Layer0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at grid point t: the three row-blocked windows at block row t, the weight
    matrices and the bias row at the origin. -/
theorem block_positions : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The region's output as one function of the five arrays it reads. -/
abbrev out (c : Dev nD) : S123904x128.Idx → EReal :=
  Cert.Sage.layer (N := 123904) true (V c main_v18) (V c main_v19) (V c main_arg7) (V c main_arg9)
    (fun q => V c main_v20 (ix2 (0 : Fin 1) q))

/-- What point t writes back is block t of `out`. -/
theorem flushed_eq (c : Dev nD) (t : Fin cfg0.N) :
    (dat0 V c).flushed 5 t = ((cfg0.win 5).blk t).view.read (Elt Ideal) (out V c) := by
  show (cfg0.win 5).cut (grid0.coords t) ((dat0 V c).after 5 t) = _
  rw [after0_5]
  unfold out0_5
  rw [View.canon_unit_zero origin]
  simp only [View.ld_unit_zero (S := S1024x128) origin, View.ld_unit_zero (S := S128x128) origin,
    View.ld_unit_zero (S := S1x128) origin]
  rw [Block.relu]
  obtain ⟨e00, e01, e10, e11, e20, e21, e30, e31, e40, e41, e50, e51⟩ := block_positions t
  funext j
  show Cert.Sage.layer (N := 1024) true (iblk0 V c 0 t) (iblk0 V c 1 t) (iblk0 V c 2 t) (iblk0 V c 4 t)
      (fun q => iblk0 V c 3 t (ix2 (0 : Fin 1) q)) j = out V c (((cfg0.win 5).blk t).view.emb j)
  refine Cert.Sage.layer_block true (V c main_v18) (V c main_v19) (V c main_arg7) (V c main_arg9) (V c main_v20)
    (iblk0 V c 0 t) (iblk0 V c 1 t) (iblk0 V c 2 t) (iblk0 V c 4 t) (iblk0 V c 3 t) j
    (((cfg0.win 5).blk t).view.emb j) (fun k => ?_) (fun k => ?_) ?_ ?_ (fun q => ?_) ?_
  · show V c main_v18 (((cfg0.win 0).blk t).view.emb (ix2 (j 0) k)) = V c main_v18 (ix2 ((((cfg0.win 5).blk t).view.emb j) 0) k)
    refine congrArg _ (funext fun a => Fin.ext ?_)
    match a with
    | ⟨0, _⟩ => show win0_0.index t (0 : Fin 2) * 1024 + 1 * (j 0).val = win0_5.index t (0 : Fin 2) * 1024 + 1 * (j 0).val; omega
    | ⟨1, _⟩ => show win0_0.index t (1 : Fin 2) * 128 + 1 * k.val = k.val; omega
  · show V c main_v19 (((cfg0.win 1).blk t).view.emb (ix2 (j 0) k)) = V c main_v19 (ix2 ((((cfg0.win 5).blk t).view.emb j) 0) k)
    refine congrArg _ (funext fun a => Fin.ext ?_)
    match a with
    | ⟨0, _⟩ => show win0_1.index t (0 : Fin 2) * 1024 + 1 * (j 0).val = win0_5.index t (0 : Fin 2) * 1024 + 1 * (j 0).val; omega
    | ⟨1, _⟩ => show win0_1.index t (1 : Fin 2) * 128 + 1 * k.val = k.val; omega
  · funext y
    show V c main_arg7 (((cfg0.win 2).blk t).view.emb y) = V c main_arg7 y
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · funext y
    show V c main_arg9 (((cfg0.win 4).blk t).view.emb y) = V c main_arg9 y
    refine congrArg _ (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  · show V c main_v20 (((cfg0.win 3).blk t).view.emb (ix2 (0 : Fin 1) q)) = V c main_v20 (ix2 (0 : Fin 1) q)
    refine congrArg _ (funext fun a => Fin.ext ?_)
    match a with
    | ⟨0, _⟩ => show win0_3.index t (0 : Fin 2) * 1 + 1 * 0 = 0; omega
    | ⟨1, _⟩ => show win0_3.index t (1 : Fin 2) * 128 + 1 * q.val = q.val; omega
  · show (j 1).val = win0_5.index t (1 : Fin 2) * 128 + 1 * (j 1).val
    omega

/-- An index of the output is in point t's block iff each coordinate is in the block's range on its axis. -/
theorem mem_blk (t : Fin cfg0.N) (i : S123904x128.Idx) :
    i ∈ ((cfg0.win 5).blk t).view.set ↔ ∀ a : Fin 2, win0_5.index t a * S1024x128.size a ≤ (i a).val
      ∧ (i a).val < win0_5.index t a * S1024x128.size a + S1024x128.size a := by
  show i ∈ ((View.whole main_v21).slice (win0_5.rect t)).set ↔ _
  rw [View.set_slice_whole, Rect.mem_set_unit]
  exact Iff.rfl

/-- Every row of the output lies in the block of the point ⌊row / 1024⌋, which is written back. -/
theorem cover (i : S123904x128.Idx) :
    ∃ t : Fin cfg0.N, (cfg0.win 5).flush t = true ∧ i ∈ ((cfg0.win 5).blk t).view.set := by
  have h0 : (i 0).val < 123904 := idx2_lt0 i
  have h1 : (i 1).val < 128 := idx2_lt1 i
  let t : Fin cfg0.N := ⟨(i 0).val / 1024, by rw [show cfg0.N = 121 from N_0]; omega⟩
  have ht : t.val = (i 0).val / 1024 := rfl
  obtain ⟨e00, e01, e10, e11, e20, e21, e30, e31, e40, e41, e50, e51⟩ := block_positions t
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 128 ≤ (i 1).val ∧ (i 1).val < win0_5.index t (1 : Fin 2) * 128 + 128; omega

/-- After the region the output array is the layer of the arrays the region found. -/
theorem final (c : Dev nD) : (dat0 V c).arrAt 5 cfg0.N = out V c :=
  (dat0 V c).arrAt_eq_of_cover 5 (out V c) (fun t _ => flushed_eq V c t) (cover)

end Cert.KernelIdeal.Layer0

end
-- ==== Proof.Layer1.lean ====
/-
  Layer 1's region, whatever the buffers hold when it is entered.

  The region runs the body at 11 grid points.  At point t the body sees rows 1024·t … 1024·t + 1023 of the
  neighbour means and of the target nodes' own rows, the two whole weight matrices and the whole bias row, and writes
  back the same rows of the output.  The body's block is the graph-convolution layer of the rows it sees, a layer's
  row depends on the same row of its two row inputs only, and the row blocks cover the output.  So after the region
  the output array is the layer of the five arrays as the region found them.
-/
import proofs.«171831_j46153718563001_1_alg».proof.Proof.Gen.KernelIdeal.Frame
import proofs.«171831_j46153718563001_1_alg».proof.Proof.BlockLayer
import Idealize.ShloMosaic.Lib.Pipeline.Value

noncomputable section

namespace Cert.KernelIdeal.Layer1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at grid point t: the three row-blocked windows at block row t, the weight
    matrices and the bias row at the origin. -/
theorem block_positions : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The region's output as one function of the five arrays it reads. -/
abbrev out (c : Dev nD) : S11264x128.Idx → EReal :=
  Cert.Sage.layer (N := 11264) true (V c main_v40) (V c main_v41) (V c main_arg10) (V c main_arg12)
    (fun q => V c main_v42 (ix2 (0 : Fin 1) q))

/-- What point t writes back is block t of `out`. -/
theorem flushed_eq (c : Dev nD) (t : Fin cfg1.N) :
    (dat1 V c).flushed 5 t = ((cfg1.win 5).blk t).view.read (Elt Ideal) (out V c) := by
  show (cfg1.win 5).cut (grid1.coords t) ((dat1 V c).after 5 t) = _
  rw [after1_5]
  unfold out1_5
  rw [View.canon_unit_zero origin]
  simp only [View.ld_unit_zero (S := S1024x128) origin, View.ld_unit_zero (S := S128x128) origin,
    View.ld_unit_zero (S := S1x128) origin]
  rw [Block.relu']
  obtain ⟨e00, e01, e10, e11, e20, e21, e30, e31, e40, e41, e50, e51⟩ := block_positions t
  funext j
  show Cert.Sage.layer (N := 1024) true (iblk1 V c 0 t) (iblk1 V c 1 t) (iblk1 V c 2 t) (iblk1 V c 4 t)
      (fun q => iblk1 V c 3 t (ix2 (0 : Fin 1) q)) j = out V c (((cfg1.win 5).blk t).view.emb j)
  refine Cert.Sage.layer_block true (V c main_v40) (V c main_v41) (V c main_arg10) (V c main_arg12) (V c main_v42)
    (iblk1 V c 0 t) (iblk1 V c 1 t) (iblk1 V c 2 t) (iblk1 V c 4 t) (iblk1 V c 3 t) j
    (((cfg1.win 5).blk t).view.emb j) (fun k => ?_) (fun k => ?_) ?_ ?_ (fun q => ?_) ?_
  · show V c main_v40 (((cfg1.win 0).blk t).view.emb (ix2 (j 0) k)) = V c main_v40 (ix2 ((((cfg1.win 5).blk t).view.emb j) 0) k)
    refine congrArg _ (funext fun a => Fin.ext ?_)
    match a with
    | ⟨0, _⟩ => show win1_0.index t (0 : Fin 2) * 1024 + 1 * (j 0).val = win1_5.index t (0 : Fin 2) * 1024 + 1 * (j 0).val; omega
    | ⟨1, _⟩ => show win1_0.index t (1 : Fin 2) * 128 + 1 * k.val = k.val; omega
  · show V c main_v41 (((cfg1.win 1).blk t).view.emb (ix2 (j 0) k)) = V c main_v41 (ix2 ((((cfg1.win 5).blk t).view.emb j) 0) k)
    refine congrArg _ (funext fun a => Fin.ext ?_)
    match a with
    | ⟨0, _⟩ => show win1_1.index t (0 : Fin 2) * 1024 + 1 * (j 0).val = win1_5.index t (0 : Fin 2) * 1024 + 1 * (j 0).val; omega
    | ⟨1, _⟩ => show win1_1.index t (1 : Fin 2) * 128 + 1 * k.val = k.val; omega
  · funext y
    show V c main_arg10 (((cfg1.win 2).blk t).view.emb y) = V c main_arg10 y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  · funext y
    show V c main_arg12 (((cfg1.win 4).blk t).view.emb y) = V c main_arg12 y
    refine congrArg _ (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  · show V c main_v42 (((cfg1.win 3).blk t).view.emb (ix2 (0 : Fin 1) q)) = V c main_v42 (ix2 (0 : Fin 1) q)
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega
  · show (j 1).val = win1_5.index t (1 : Fin 2) * 128 + 1 * (j 1).val
    omega

/-- An index of the output is in point t's block iff each coordinate is in the block's range on its axis. -/
theorem mem_blk (t : Fin cfg1.N) (i : S11264x128.Idx) :
    i ∈ ((cfg1.win 5).blk t).view.set ↔ ∀ a : Fin 2, win1_5.index t a * S1024x128.size a ≤ (i a).val
      ∧ (i a).val < win1_5.index t a * S1024x128.size a + S1024x128.size a := by
  show i ∈ ((View.whole main_v43).slice (win1_5.rect t)).set ↔ _
  rw [View.set_slice_whole, Rect.mem_set_unit]
  exact Iff.rfl

/-- Every row of the output lies in the block of the point ⌊row / 1024⌋, which is written back. -/
theorem cover (i : S11264x128.Idx) :
    ∃ t : Fin cfg1.N, (cfg1.win 5).flush t = true ∧ i ∈ ((cfg1.win 5).blk t).view.set := by
  have h0 : (i 0).val < 11264 := idx2_lt0 i
  have h1 : (i 1).val < 128 := idx2_lt1 i
  let t : Fin cfg1.N := ⟨(i 0).val / 1024, by rw [show cfg1.N = 11 from N_1]; omega⟩
  have ht : t.val = (i 0).val / 1024 := rfl
  obtain ⟨e00, e01, e10, e11, e20, e21, e30, e31, e40, e41, e50, e51⟩ := block_positions t
  refine ⟨t, flush1_5 t, ?_⟩
  rw [mem_blk]
  intro a
  match a with
  | ⟨0, _⟩ => show win1_5.index t (0 : Fin 2) * 1024 ≤ (i 0).val ∧ (i 0).val < win1_5.index t (0 : Fin 2) * 1024 + 1024; omega
  | ⟨1, _⟩ => show win1_5.index t (1 : Fin 2) * 128 ≤ (i 1).val ∧ (i 1).val < win1_5.index t (1 : Fin 2) * 128 + 128; omega

/-- After the region the output array is the layer of the arrays the region found. -/
theorem final (c : Dev nD) : (dat1 V c).arrAt 5 cfg1.N = out V c :=
  (dat1 V c).arrAt_eq_of_cover 5 (out V c) (fun t _ => flushed_eq V c t) (cover)

end Cert.KernelIdeal.Layer1

end
-- ==== Proof.Layer2.lean ====
/-
  Layer 2's region, whatever the buffers hold when it is entered.

  The region runs the body at 1 grid point.  At point t the body sees rows 1024·t … 1024·t + 1023 of the
  neighbour means and of the target nodes' own rows, the two whole weight matrices and the whole bias row, and writes
  back the same rows of the output.  The body's block is the graph-convolution layer of the rows it sees, a layer's
  row depends on the same row of its two row inputs only, and the row blocks cover the output.  So after the region
  the output array is the layer of the five arrays as the region found them.
-/
import proofs.«171831_j46153718563001_1_alg».proof.Proof.Gen.KernelIdeal.Frame
import proofs.«171831_j46153718563001_1_alg».proof.Proof.BlockLayer
import Idealize.ShloMosaic.Lib.Pipeline.Value

noncomputable section

namespace Cert.KernelIdeal.Layer2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at grid point t: the three row-blocked windows at block row t, the weight
    matrices and the bias row at the origin. -/
theorem block_positions : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The region's output as one function of the five arrays it reads. -/
abbrev out (c : Dev nD) : S1024x128.Idx → EReal :=
  Cert.Sage.layer (N := 1024) false (V c main_v62) (V c main_v63) (V c main_arg13) (V c main_arg15)
    (fun q => V c main_v64 (ix2 (0 : Fin 1) q))

/-- What point t writes back is block t of `out`. -/
theorem flushed_eq (c : Dev nD) (t : Fin cfg2.N) :
    (dat2 V c).flushed 5 t = ((cfg2.win 5).blk t).view.read (Elt Ideal) (out V c) := by
  show (cfg2.win 5).cut (grid2.coords t) ((dat2 V c).after 5 t) = _
  rw [after2_5]
  unfold out2_5
  rw [View.canon_unit_zero origin]
  simp only [View.ld_unit_zero (S := S1024x128) origin, View.ld_unit_zero (S := S128x128) origin,
    View.ld_unit_zero (S := S1x128) origin]
  rw [Block.plain]
  obtain ⟨e00, e01, e10, e11, e20, e21, e30, e31, e40, e41, e50, e51⟩ := block_positions t
  funext j
  show Cert.Sage.layer (N := 1024) false (iblk2 V c 0 t) (iblk2 V c 1 t) (iblk2 V c 2 t) (iblk2 V c 4 t)
      (fun q => iblk2 V c 3 t (ix2 (0 : Fin 1) q)) j = out V c (((cfg2.win 5).blk t).view.emb j)
  refine Cert.Sage.layer_block false (V c main_v62) (V c main_v63) (V c main_arg13) (V c main_arg15) (V c main_v64)
    (iblk2 V c 0 t) (iblk2 V c 1 t) (iblk2 V c 2 t) (iblk2 V c 4 t) (iblk2 V c 3 t) j
    (((cfg2.win 5).blk t).view.emb j) (fun k => ?_) (fun k => ?_) ?_ ?_ (fun q => ?_) ?_
  · show V c main_v62 (((cfg2.win 0).blk t).view.emb (ix2 (j 0) k)) = V c main_v62 (ix2 ((((cfg2.win 5).blk t).view.emb j) 0) k)
    refine congrArg _ (funext fun a => Fin.ext ?_)
    match a with
    | ⟨0, _⟩ => show win2_0.index t (0 : Fin 2) * 1024 + 1 * (j 0).val = win2_5.index t (0 : Fin 2) * 1024 + 1 * (j 0).val; omega
    | ⟨1, _⟩ => show win2_0.index t (1 : Fin 2) * 128 + 1 * k.val = k.val; omega
  · show V c main_v63 (((cfg2.win 1).blk t).view.emb (ix2 (j 0) k)) = V c main_v63 (ix2 ((((cfg2.win 5).blk t).view.emb j) 0) k)
    refine congrArg _ (funext fun a => Fin.ext ?_)
    match a with
    | ⟨0, _⟩ => show win2_1.index t (0 : Fin 2) * 1024 + 1 * (j 0).val = win2_5.index t (0 : Fin 2) * 1024 + 1 * (j 0).val; omega
    | ⟨1, _⟩ => show win2_1.index t (1 : Fin 2) * 128 + 1 * k.val = k.val; omega
  · funext y
    show V c main_arg13 (((cfg2.win 2).blk t).view.emb y) = V c main_arg13 y
    refine congrArg _ (funext fun a => Fin.ext ?_)
    match a with
    | ⟨0, _⟩ => show win2_2.index t (0 : Fin 2) * 128 + 1 * (y 0).val = (y 0).val; omega
    | ⟨1, _⟩ => show win2_2.index t (1 : Fin 2) * 128 + 1 * (y 1).val = (y 1).val; omega
  · funext y
    show V c main_arg15 (((cfg2.win 4).blk t).view.emb y) = V c main_arg15 y
    refine congrArg _ (funext fun a => Fin.ext ?_)
    match a with
    | ⟨0, _⟩ => show win2_4.index t (0 : Fin 2) * 128 + 1 * (y 0).val = (y 0).val; omega
    | ⟨1, _⟩ => show win2_4.index t (1 : Fin 2) * 128 + 1 * (y 1).val = (y 1).val; omega
  · show V c main_v64 (((cfg2.win 3).blk t).view.emb (ix2 (0 : Fin 1) q)) = V c main_v64 (ix2 (0 : Fin 1) q)
    refine congrArg _ (funext fun a => Fin.ext ?_)
    match a with
    | ⟨0, _⟩ => show win2_3.index t (0 : Fin 2) * 1 + 1 * 0 = 0; omega
    | ⟨1, _⟩ => show win2_3.index t (1 : Fin 2) * 128 + 1 * q.val = q.val; omega
  · show (j 1).val = win2_5.index t (1 : Fin 2) * 128 + 1 * (j 1).val
    omega

/-- An index of the output is in point t's block iff each coordinate is in the block's range on its axis. -/
theorem mem_blk (t : Fin cfg2.N) (i : S1024x128.Idx) :
    i ∈ ((cfg2.win 5).blk t).view.set ↔ ∀ a : Fin 2, win2_5.index t a * S1024x128.size a ≤ (i a).val
      ∧ (i a).val < win2_5.index t a * S1024x128.size a + S1024x128.size a := by
  show i ∈ ((View.whole main_v65).slice (win2_5.rect t)).set ↔ _
  rw [View.set_slice_whole, Rect.mem_set_unit]
  exact Iff.rfl

/-- Every row of the output lies in the block of the point ⌊row / 1024⌋, which is written back. -/
theorem cover (i : S1024x128.Idx) :
    ∃ t : Fin cfg2.N, (cfg2.win 5).flush t = true ∧ i ∈ ((cfg2.win 5).blk t).view.set := by
  have h0 : (i 0).val < 1024 := idx2_lt0 i
  have h1 : (i 1).val < 128 := idx2_lt1 i
  let t : Fin cfg2.N := ⟨(i 0).val / 1024, by rw [show cfg2.N = 1 from N_2]; omega⟩
  have ht : t.val = (i 0).val / 1024 := rfl
  obtain ⟨e00, e01, e10, e11, e20, e21, e30, e31, e40, e41, e50, e51⟩ := block_positions t
  refine ⟨t, flush2_5 t, ?_⟩
  rw [mem_blk]
  intro a
  match a with
  | ⟨0, _⟩ => show win2_5.index t (0 : Fin 2) * 1024 ≤ (i 0).val ∧ (i 0).val < win2_5.index t (0 : Fin 2) * 1024 + 1024; omega
  | ⟨1, _⟩ => show win2_5.index t (1 : Fin 2) * 128 ≤ (i 1).val ∧ (i 1).val < win2_5.index t (1 : Fin 2) * 128 + 128; omega

/-- After the region the output array is the layer of the arrays the region found. -/
theorem final (c : Dev nD) : (dat2 V c).arrAt 5 cfg2.N = out V c :=
  (dat2 V c).arrAt_eq_of_cover 5 (out V c) (fun t _ => flushed_eq V c t) (cover)

end Cert.KernelIdeal.Layer2

end
-- ==== Proof.SageNet.lean ====
/-
  The three-layer network as one function of the sixteen arguments.

  Each layer first aggregates: every target node takes the mean of the feature rows of its in-neighbours (a gather
  along the edges' sources, a segment sum along their targets, a division by the in-degree floored at one), and keeps
  its own row (the target nodes are the first rows of the layer's input).  Then it applies the graph-convolution
  layer of SageLayer to the means and the own rows.  The aggregation is spelt by both programs with the same host
  operations on the same operands, so it enters the comparison only as a function that both sides apply.
-/
import proofs.«171831_j46153718563001_1_alg».proof.Proof.Gen.KernelIdeal
import proofs.«171831_j46153718563001_1_alg».proof.Proof.SageLayer

noncomputable section

namespace Cert.KernelIdeal.Net

open Cert.KernelIdeal Cert.KernelIdeal.Gen Idealize.ShloMosaic Idealize.ShloMosaic.ValueIdx

/-- Layer 0's aggregation: for each of the 123904 target nodes, the sum of the feature rows of its in-neighbours (edges
    `src → dst`; a negative source index counted from the end) divided by the number of its incoming edges, that number
    floored at one.  These are the host's own gather, segment sums and division; nothing below opens them. -/
def mean0 (h : (⟨S1362944x128, .f32⟩ : BufTy).Contents (Elt Ideal)) (src dst : (⟨S1239040, .i32⟩ : BufTy).Contents (Elt Ideal)) :
    (⟨S123904x128, .f32⟩ : BufTy).Contents (Elt Ideal) :=
  Host.divf (F := Ideal)
    (Host.scatterAdd scatter_S123904x128_S1239040x1_S1239040x128_1_0_0_1
      (broadcastInDim S123904x128 ![] bcast_S_S123904x128 (constant (F := Ideal) S_ .f32 0x00000000#32))
      (broadcastInDim S1239040x1 ![0] bcast_S1239040_S1239040x1_0 dst)
      (Host.gather gather_S1362944x128_S1239040x1_S1239040x128_1_0_n_n_0_1_1128 h
        (broadcastInDim S1239040x1 ![0] bcast_S1239040_S1239040x1_0
          (select (cmpi .slt src (broadcastInDim S1239040 ![] bcast_S_S1239040 (constantI S_ 32 0#32)))
            (addi src (broadcastInDim S1239040 ![] bcast_S_S1239040 (constantI S_ 32 1362944#32))) src))))
    (broadcastInDim S123904x128 ![0, 1] bcast_S123904x1_S123904x128_0_1
      (broadcastInDim S123904x1 ![0] bcast_S123904_S123904x1_0
        (maximumf
          (Host.scatterAdd scatter_S123904_S1239040x1_S1239040_n_0_0_1
            (broadcastInDim S123904 ![] bcast_S_S123904 (constant (F := Ideal) S_ .f32 0x00000000#32))
            (broadcastInDim S1239040x1 ![0] bcast_S1239040_S1239040x1_0 dst)
            (broadcastInDim S1239040 ![] bcast_S_S1239040 (constant (F := Ideal) S_ .f32 0x3F800000#32)))
          (broadcastInDim S123904 ![] bcast_S_S123904 (constant (F := Ideal) S_ .f32 0x3F800000#32)))))

/-- Layer 0's own-feature input: the first 123904 rows of the layer's input (the target nodes come first). -/
def own0 (h : (⟨S1362944x128, .f32⟩ : BufTy).Contents (Elt Ideal)) : (⟨S123904x128, .f32⟩ : BufTy).Contents (Elt Ideal) :=
  extractStridedSlice S123904x128 ![0, 0] h slices_S1362944x128_S123904x128_0_0

/-- Layer 0 of the network: the graph-convolution layer of the aggregated means and the target nodes' own rows, with the positive part. -/
def layer0 (h : (⟨S1362944x128, .f32⟩ : BufTy).Contents (Elt Ideal)) (src dst : (⟨S1239040, .i32⟩ : BufTy).Contents (Elt Ideal))
    (Wl : (⟨S128x128, .f32⟩ : BufTy).Contents (Elt Ideal)) (bl : (⟨S128, .f32⟩ : BufTy).Contents (Elt Ideal))
    (Wr : (⟨S128x128, .f32⟩ : BufTy).Contents (Elt Ideal)) : (⟨S123904x128, .f32⟩ : BufTy).Contents (Elt Ideal) :=
  Cert.Sage.layer (N := 123904) true (mean0 h src dst) (own0 h) Wl Wr (fun q => bl (ix1 q))

/-- Layer 1's aggregation: for each of the 11264 target nodes, the sum of the feature rows of its in-neighbours (edges
    `src → dst`; a negative source index counted from the end) divided by the number of its incoming edges, that number
    floored at one.  These are the host's own gather, segment sums and division; nothing below opens them. -/
def mean1 (h : (⟨S123904x128, .f32⟩ : BufTy).Contents (Elt Ideal)) (src dst : (⟨S112640, .i32⟩ : BufTy).Contents (Elt Ideal)) :
    (⟨S11264x128, .f32⟩ : BufTy).Contents (Elt Ideal) :=
  Host.divf (F := Ideal)
    (Host.scatterAdd scatter_S11264x128_S112640x1_S112640x128_1_0_0_1
      (broadcastInDim S11264x128 ![] bcast_S_S11264x128 (constant (F := Ideal) S_ .f32 0x00000000#32))
      (broadcastInDim S112640x1 ![0] bcast_S112640_S112640x1_0 dst)
      (Host.gather gather_S123904x128_S112640x1_S112640x128_1_0_n_n_0_1_1128 h
        (broadcastInDim S112640x1 ![0] bcast_S112640_S112640x1_0
          (select (cmpi .slt src (broadcastInDim S112640 ![] bcast_S_S112640 (constantI S_ 32 0#32)))
            (addi src (broadcastInDim S112640 ![] bcast_S_S112640 (constantI S_ 32 123904#32))) src))))
    (broadcastInDim S11264x128 ![0, 1] bcast_S11264x1_S11264x128_0_1
      (broadcastInDim S11264x1 ![0] bcast_S11264_S11264x1_0
        (maximumf
          (Host.scatterAdd scatter_S11264_S112640x1_S112640_n_0_0_1
            (broadcastInDim S11264 ![] bcast_S_S11264 (constant (F := Ideal) S_ .f32 0x00000000#32))
            (broadcastInDim S112640x1 ![0] bcast_S112640_S112640x1_0 dst)
            (broadcastInDim S112640 ![] bcast_S_S112640 (constant (F := Ideal) S_ .f32 0x3F800000#32)))
          (broadcastInDim S11264 ![] bcast_S_S11264 (constant (F := Ideal) S_ .f32 0x3F800000#32)))))

/-- Layer 1's own-feature input: the first 11264 rows of the layer's input (the target nodes come first). -/
def own1 (h : (⟨S123904x128, .f32⟩ : BufTy).Contents (Elt Ideal)) : (⟨S11264x128, .f32⟩ : BufTy).Contents (Elt Ideal) :=
  extractStridedSlice S11264x128 ![0, 0] h slices_S123904x128_S11264x128_0_0

/-- Layer 1 of the network: the graph-convolution layer of the aggregated means and the target nodes' own rows, with the positive part. -/
def layer1 (h : (⟨S123904x128, .f32⟩ : BufTy).Contents (Elt Ideal)) (src dst : (⟨S112640, .i32⟩ : BufTy).Contents (Elt Ideal))
    (Wl : (⟨S128x128, .f32⟩ : BufTy).Contents (Elt Ideal)) (bl : (⟨S128, .f32⟩ : BufTy).Contents (Elt Ideal))
    (Wr : (⟨S128x128, .f32⟩ : BufTy).Contents (Elt Ideal)) : (⟨S11264x128, .f32⟩ : BufTy).Contents (Elt Ideal) :=
  Cert.Sage.layer (N := 11264) true (mean1 h src dst) (own1 h) Wl Wr (fun q => bl (ix1 q))

/-- Layer 2's aggregation: for each of the 1024 target nodes, the sum of the feature rows of its in-neighbours (edges
    `src → dst`; a negative source index counted from the end) divided by the number of its incoming edges, that number
    floored at one.  These are the host's own gather, segment sums and division; nothing below opens them. -/
def mean2 (h : (⟨S11264x128, .f32⟩ : BufTy).Contents (Elt Ideal)) (src dst : (⟨S10240, .i32⟩ : BufTy).Contents (Elt Ideal)) :
    (⟨S1024x128, .f32⟩ : BufTy).Contents (Elt Ideal) :=
  Host.divf (F := Ideal)
    (Host.scatterAdd scatter_S1024x128_S10240x1_S10240x128_1_0_0_1
      (broadcastInDim S1024x128 ![] bcast_S_S1024x128 (constant (F := Ideal) S_ .f32 0x00000000#32))
      (broadcastInDim S10240x1 ![0] bcast_S10240_S10240x1_0 dst)
      (Host.gather gather_S11264x128_S10240x1_S10240x128_1_0_n_n_0_1_1128 h
        (broadcastInDim S10240x1 ![0] bcast_S10240_S10240x1_0
          (select (cmpi .slt src (broadcastInDim S10240 ![] bcast_S_S10240 (constantI S_ 32 0#32)))
            (addi src (broadcastInDim S10240 ![] bcast_S_S10240 (constantI S_ 32 11264#32))) src))))
    (broadcastInDim S1024x128 ![0, 1] bcast_S1024x1_S1024x128_0_1
      (broadcastInDim S1024x1 ![0] bcast_S1024_S1024x1_0
        (maximumf
          (Host.scatterAdd scatter_S1024_S10240x1_S10240_n_0_0_1
            (broadcastInDim S1024 ![] bcast_S_S1024 (constant (F := Ideal) S_ .f32 0x00000000#32))
            (broadcastInDim S10240x1 ![0] bcast_S10240_S10240x1_0 dst)
            (broadcastInDim S10240 ![] bcast_S_S10240 (constant (F := Ideal) S_ .f32 0x3F800000#32)))
          (broadcastInDim S1024 ![] bcast_S_S1024 (constant (F := Ideal) S_ .f32 0x3F800000#32)))))

/-- Layer 2's own-feature input: the first 1024 rows of the layer's input (the target nodes come first). -/
def own2 (h : (⟨S11264x128, .f32⟩ : BufTy).Contents (Elt Ideal)) : (⟨S1024x128, .f32⟩ : BufTy).Contents (Elt Ideal) :=
  extractStridedSlice S1024x128 ![0, 0] h slices_S11264x128_S1024x128_0_0

/-- Layer 2 of the network: the graph-convolution layer of the aggregated means and the target nodes' own rows (no activation on the last layer). -/
def layer2 (h : (⟨S11264x128, .f32⟩ : BufTy).Contents (Elt Ideal)) (src dst : (⟨S10240, .i32⟩ : BufTy).Contents (Elt Ideal))
    (Wl : (⟨S128x128, .f32⟩ : BufTy).Contents (Elt Ideal)) (bl : (⟨S128, .f32⟩ : BufTy).Contents (Elt Ideal))
    (Wr : (⟨S128x128, .f32⟩ : BufTy).Contents (Elt Ideal)) : (⟨S1024x128, .f32⟩ : BufTy).Contents (Elt Ideal) :=
  Cert.Sage.layer (N := 1024) false (mean2 h src dst) (own2 h) Wl Wr (fun q => bl (ix1 q))

end Cert.KernelIdeal.Net

end
-- ==== Proof.HostStretches.lean ====
/-
  What the three stretches of host operations leave for the regions.

  Before each region @main computes, on the host, the region's operands: the aggregated neighbour means of the
  layer's input, the target nodes' own rows (a slice), and the bias reshaped from 128 entries to one row [1, 128].
  The weight matrices are arguments and no host operation writes an argument.  Each fact below reads one buffer
  after one stretch, from whatever the buffers held before it: an operation's result buffer holds the operation
  applied to its operands' contents, and every other buffer keeps what it held.
-/
import proofs.«171831_j46153718563001_1_alg».proof.Proof.Gen.KernelIdeal.Launch
import proofs.«171831_j46153718563001_1_alg».proof.Proof.SageNet
import Idealize.ShloMosaic.Lib.StableHlo.Run

noncomputable section

namespace Cert.KernelIdeal.Stretch

open Cert.KernelIdeal Cert.KernelIdeal.Gen Idealize.ShloMosaic Idealize.ShloMosaic.TcCoe Idealize.ShloMosaic.StableHlo

variable (W : Valuation τ sig (Elt Ideal))

/-! ## The stretch before region 0 -/

set_option maxHeartbeats 8000000 in
/-- It leaves the aggregated means of layer 0's input in the region's first operand. -/
theorem mean_0 : after (hostOps0 (F := Ideal)) W (Proc.devRef .tc main_v18)
    = Net.mean0 (W (Proc.devRef .tc main_arg0)) (W (Proc.devRef .tc main_arg1)) (W (Proc.devRef .tc main_arg2)) := by
  after_results_simp <;> rfl

/-- It leaves the target nodes' own rows in the second operand. -/
theorem own_0 : after (hostOps0 (F := Ideal)) W (Proc.devRef .tc main_v19) = Net.own0 (W (Proc.devRef .tc main_arg0)) := by
  after_results
  rfl

/-- It leaves the bias, viewed as one row, in the fourth operand. -/
theorem bias_0 : after (hostOps0 (F := Ideal)) W (Proc.devRef .tc main_v20)
    = shapeCast S1x128 (W (Proc.devRef .tc main_arg8)) shapeCasts_S128_S1x128 := by
  after_results
  rfl

theorem keeps_0_arg7 : after (hostOps0 (F := Ideal)) W (Proc.devRef .tc main_arg7) = W (Proc.devRef .tc main_arg7) := by
  after_results
theorem keeps_0_arg9 : after (hostOps0 (F := Ideal)) W (Proc.devRef .tc main_arg9) = W (Proc.devRef .tc main_arg9) := by
  after_results
theorem keeps_0_arg3 : after (hostOps0 (F := Ideal)) W (Proc.devRef .tc main_arg3) = W (Proc.devRef .tc main_arg3) := by
  after_results
theorem keeps_0_arg4 : after (hostOps0 (F := Ideal)) W (Proc.devRef .tc main_arg4) = W (Proc.devRef .tc main_arg4) := by
  after_results
theorem keeps_0_arg10 : after (hostOps0 (F := Ideal)) W (Proc.devRef .tc main_arg10) = W (Proc.devRef .tc main_arg10) := by
  after_results
theorem keeps_0_arg11 : after (hostOps0 (F := Ideal)) W (Proc.devRef .tc main_arg11) = W (Proc.devRef .tc main_arg11) := by
  after_results
theorem keeps_0_arg12 : after (hostOps0 (F := Ideal)) W (Proc.devRef .tc main_arg12) = W (Proc.devRef .tc main_arg12) := by
  after_results
theorem keeps_0_arg5 : after (hostOps0 (F := Ideal)) W (Proc.devRef .tc main_arg5) = W (Proc.devRef .tc main_arg5) := by
  after_results
theorem keeps_0_arg6 : after (hostOps0 (F := Ideal)) W (Proc.devRef .tc main_arg6) = W (Proc.devRef .tc main_arg6) := by
  after_results
theorem keeps_0_arg13 : after (hostOps0 (F := Ideal)) W (Proc.devRef .tc main_arg13) = W (Proc.devRef .tc main_arg13) := by
  after_results
theorem keeps_0_arg14 : after (hostOps0 (F := Ideal)) W (Proc.devRef .tc main_arg14) = W (Proc.devRef .tc main_arg14) := by
  after_results
theorem keeps_0_arg15 : after (hostOps0 (F := Ideal)) W (Proc.devRef .tc main_arg15) = W (Proc.devRef .tc main_arg15) := by
  after_results

/-! ## The stretch before region 1 -/

set_option maxHeartbeats 8000000 in
/-- It leaves the aggregated means of layer 1's input in the region's first operand. -/
theorem mean_1 : after (hostOps1 (F := Ideal)) W (Proc.devRef .tc main_v40)
    = Net.mean1 (W (Proc.devRef .tc main_v21)) (W (Proc.devRef .tc main_arg3)) (W (Proc.devRef .tc main_arg4)) := by
  after_results_simp <;> rfl

/-- It leaves the target nodes' own rows in the second operand. -/
theorem own_1 : after (hostOps1 (F := Ideal)) W (Proc.devRef .tc main_v41) = Net.own1 (W (Proc.devRef .tc main_v21)) := by
  after_results
  rfl

/-- It leaves the bias, viewed as one row, in the fourth operand. -/
theorem bias_1 : after (hostOps1 (F := Ideal)) W (Proc.devRef .tc main_v42)
    = shapeCast S1x128 (W (Proc.devRef .tc main_arg11)) shapeCasts_S128_S1x128 := by
  after_results
  rfl

theorem keeps_1_arg10 : after (hostOps1 (F := Ideal)) W (Proc.devRef .tc main_arg10) = W (Proc.devRef .tc main_arg10) := by
  after_results
theorem keeps_1_arg12 : after (hostOps1 (F := Ideal)) W (Proc.devRef .tc main_arg12) = W (Proc.devRef .tc main_arg12) := by
  after_results
theorem keeps_1_arg5 : after (hostOps1 (F := Ideal)) W (Proc.devRef .tc main_arg5) = W (Proc.devRef .tc main_arg5) := by
  after_results
theorem keeps_1_arg6 : after (hostOps1 (F := Ideal)) W (Proc.devRef .tc main_arg6) = W (Proc.devRef .tc main_arg6) := by
  after_results
theorem keeps_1_arg13 : after (hostOps1 (F := Ideal)) W (Proc.devRef .tc main_arg13) = W (Proc.devRef .tc main_arg13) := by
  after_results
theorem keeps_1_arg14 : after (hostOps1 (F := Ideal)) W (Proc.devRef .tc main_arg14) = W (Proc.devRef .tc main_arg14) := by
  after_results
theorem keeps_1_arg15 : after (hostOps1 (F := Ideal)) W (Proc.devRef .tc main_arg15) = W (Proc.devRef .tc main_arg15) := by
  after_results

/-! ## The stretch before region 2 -/

set_option maxHeartbeats 8000000 in
/-- It leaves the aggregated means of layer 2's input in the region's first operand. -/
theorem mean_2 : after (hostOps2 (F := Ideal)) W (Proc.devRef .tc main_v62)
    = Net.mean2 (W (Proc.devRef .tc main_v43)) (W (Proc.devRef .tc main_arg5)) (W (Proc.devRef .tc main_arg6)) := by
  after_results_simp <;> rfl

/-- It leaves the target nodes' own rows in the second operand. -/
theorem own_2 : after (hostOps2 (F := Ideal)) W (Proc.devRef .tc main_v63) = Net.own2 (W (Proc.devRef .tc main_v43)) := by
  after_results
  rfl

/-- It leaves the bias, viewed as one row, in the fourth operand. -/
theorem bias_2 : after (hostOps2 (F := Ideal)) W (Proc.devRef .tc main_v64)
    = shapeCast S1x128 (W (Proc.devRef .tc main_arg14)) shapeCasts_S128_S1x128 := by
  after_results
  rfl

theorem keeps_2_arg13 : after (hostOps2 (F := Ideal)) W (Proc.devRef .tc main_arg13) = W (Proc.devRef .tc main_arg13) := by
  after_results
theorem keeps_2_arg15 : after (hostOps2 (F := Ideal)) W (Proc.devRef .tc main_arg15) = W (Proc.devRef .tc main_arg15) := by
  after_results

end Cert.KernelIdeal.Stretch

end
-- ==== Proof.KernelResult.lean ====
/-
  What the idealized kernel's result array holds at the end of the run.

  The buffers' contents at the six segment boundaries are a fold from the launch memory: a stretch of host
  operations applies its operations, a region replaces its output array by what its write-backs leave and keeps every
  other buffer.  Peeling the fold from the last region back: the result array is region 2's output, which is layer 2
  of the buffers region 2 found; those were left by the third stretch from region 1's output and from arguments
  that nothing before had written; and so on down to the launch memory.  The result is the three layers of SageNet
  composed, of the sixteen arguments.
-/
import proofs.«171831_j46153718563001_1_alg».proof.Proof.Layer0
import proofs.«171831_j46153718563001_1_alg».proof.Proof.Layer1
import proofs.«171831_j46153718563001_1_alg».proof.Proof.Layer2
import proofs.«171831_j46153718563001_1_alg».proof.Proof.HostStretches
import Idealize.ShloMosaic.Lib.ValueLayout

noncomputable section

namespace Cert.KernelIdeal.Net

open Cert.KernelIdeal Cert.KernelIdeal.Gen Idealize.ShloMosaic Idealize.ShloMosaic.TcCoe Idealize.SL.Sem

/-- Layer 0's output as a function of the launch memory. -/
def layer0_of (m : (ℓ : Loc nD τ sig) → Buf (Elt Ideal) ℓ) (c : Dev nD) : (⟨S123904x128, .f32⟩ : BufTy).Contents (Elt Ideal) :=
  layer0 (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9))

/-- Layer 1's output as a function of the launch memory. -/
def layer1_of (m : (ℓ : Loc nD τ sig) → Buf (Elt Ideal) ℓ) (c : Dev nD) : (⟨S11264x128, .f32⟩ : BufTy).Contents (Elt Ideal) :=
  layer1 (layer0_of m c) (m ((c : Thread nD τ).loc main_arg3)) (m ((c : Thread nD τ).loc main_arg4)) (m ((c : Thread nD τ).loc main_arg10)) (m ((c : Thread nD τ).loc main_arg11)) (m ((c : Thread nD τ).loc main_arg12))

/-- Layer 2's output as a function of the launch memory. -/
def layer2_of (m : (ℓ : Loc nD τ sig) → Buf (Elt Ideal) ℓ) (c : Dev nD) : (⟨S1024x128, .f32⟩ : BufTy).Contents (Elt Ideal) :=
  layer2 (layer1_of m c) (m ((c : Thread nD τ).loc main_arg5)) (m ((c : Thread nD τ).loc main_arg6)) (m ((c : Thread nD τ).loc main_arg13)) (m ((c : Thread nD τ).loc main_arg14)) (m ((c : Thread nD τ).loc main_arg15))

end Cert.KernelIdeal.Net

namespace Cert.KernelIdeal.Result

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The bias viewed as one row, read along the row, is the bias. -/
theorem bias_row (b : (⟨S128, .f32⟩ : BufTy).Contents (Elt Ideal)) :
    (fun q : Fin 128 => shapeCast S1x128 b shapeCasts_S128_S1x128 (ix2 (0 : Fin 1) q)) = fun q => b (ix1 q) :=
  funext fun q => shapeCast_a_1a_apply b shapeCasts_S128_S1x128 (0 : Fin 1) q

/-- A buffer that neither region 0 nor the first stretch writes still holds its launch contents after region 0. -/
theorem arg_W2 (c : Dev nD) (b : Ref sig .tc) (h0 : ∀ w, Pipeline.arrRef spec0 w ≠ b)
    (k0 : StableHlo.after hostOps0 (W0 m ρ c) (Proc.devRef .tc b) = W0 m ρ c (Proc.devRef .tc b)) :
    W2 m ρ c (Proc.devRef .tc b) = m ((c : Thread nD τ).loc b) :=
  (W2_of_ne m ρ c b h0).trans k0

/-- The same through the second stretch and region 1. -/
theorem arg_W4 (c : Dev nD) (b : Ref sig .tc) (h0 : ∀ w, Pipeline.arrRef spec0 w ≠ b) (h1 : ∀ w, Pipeline.arrRef spec1 w ≠ b)
    (k0 : StableHlo.after hostOps0 (W0 m ρ c) (Proc.devRef .tc b) = W0 m ρ c (Proc.devRef .tc b))
    (k1 : StableHlo.after hostOps1 (W2 m ρ c) (Proc.devRef .tc b) = W2 m ρ c (Proc.devRef .tc b)) :
    W4 m ρ c (Proc.devRef .tc b) = m ((c : Thread nD τ).loc b) :=
  (W4_of_ne m ρ c b h1).trans (k1.trans (arg_W2 m ρ c b h0 k0))

/-- After region 0: its output array holds layer 0 of the input features. -/
theorem after_region0 (c : Dev nD) : W2 m ρ c (Proc.devRef .tc main_v21) = Net.layer0_of m c := by
  refine (W2_arr m ρ c 5).trans ((Layer0.final (V1 m ρ) c).trans ?_)
  show Cert.Sage.layer (N := 123904) true
      (StableHlo.after hostOps0 (W0 m ρ c) (Proc.devRef .tc main_v18)) (StableHlo.after hostOps0 (W0 m ρ c) (Proc.devRef .tc main_v19))
      (StableHlo.after hostOps0 (W0 m ρ c) (Proc.devRef .tc main_arg7)) (StableHlo.after hostOps0 (W0 m ρ c) (Proc.devRef .tc main_arg9))
      (fun q => StableHlo.after hostOps0 (W0 m ρ c) (Proc.devRef .tc main_v20) (ix2 (0 : Fin 1) q)) = _
  rw [Stretch.mean_0, Stretch.own_0, Stretch.keeps_0_arg7, Stretch.keeps_0_arg9, Stretch.bias_0, bias_row]
  rfl

/-- After region 1: its output array holds layer 1 of the previous region's output. -/
theorem after_region1 (c : Dev nD) : W4 m ρ c (Proc.devRef .tc main_v43) = Net.layer1_of m c := by
  refine (W4_arr m ρ c 5).trans ((Layer1.final (V3 m ρ) c).trans ?_)
  show Cert.Sage.layer (N := 11264) true
      (StableHlo.after hostOps1 (W2 m ρ c) (Proc.devRef .tc main_v40)) (StableHlo.after hostOps1 (W2 m ρ c) (Proc.devRef .tc main_v41))
      (StableHlo.after hostOps1 (W2 m ρ c) (Proc.devRef .tc main_arg10)) (StableHlo.after hostOps1 (W2 m ρ c) (Proc.devRef .tc main_arg12))
      (fun q => StableHlo.after hostOps1 (W2 m ρ c) (Proc.devRef .tc main_v42) (ix2 (0 : Fin 1) q)) = _
  rw [Stretch.mean_1, Stretch.own_1, Stretch.keeps_1_arg10, Stretch.keeps_1_arg12, Stretch.bias_1, bias_row]
  rw [after_region0]
  have h_arg3 : W2 m ρ c (Proc.devRef .tc main_arg3) = m ((c : Thread nD τ).loc main_arg3) := arg_W2 m ρ c main_arg3 (by decide) (Stretch.keeps_0_arg3 _)
  have h_arg4 : W2 m ρ c (Proc.devRef .tc main_arg4) = m ((c : Thread nD τ).loc main_arg4) := arg_W2 m ρ c main_arg4 (by decide) (Stretch.keeps_0_arg4 _)
  have h_arg10 : W2 m ρ c (Proc.devRef .tc main_arg10) = m ((c : Thread nD τ).loc main_arg10) := arg_W2 m ρ c main_arg10 (by decide) (Stretch.keeps_0_arg10 _)
  have h_arg11 : W2 m ρ c (Proc.devRef .tc main_arg11) = m ((c : Thread nD τ).loc main_arg11) := arg_W2 m ρ c main_arg11 (by decide) (Stretch.keeps_0_arg11 _)
  have h_arg12 : W2 m ρ c (Proc.devRef .tc main_arg12) = m ((c : Thread nD τ).loc main_arg12) := arg_W2 m ρ c main_arg12 (by decide) (Stretch.keeps_0_arg12 _)
  rw [h_arg3, h_arg4, h_arg10, h_arg11, h_arg12]
  rfl

/-- After region 2: its output array holds layer 2 of the previous region's output. -/
theorem after_region2 (c : Dev nD) : W6 m ρ c (Proc.devRef .tc main_v65) = Net.layer2_of m c := by
  refine (W6_arr m ρ c 5).trans ((Layer2.final (V5 m ρ) c).trans ?_)
  show Cert.Sage.layer (N := 1024) false
      (StableHlo.after hostOps2 (W4 m ρ c) (Proc.devRef .tc main_v62)) (StableHlo.after hostOps2 (W4 m ρ c) (Proc.devRef .tc main_v63))
      (StableHlo.after hostOps2 (W4 m ρ c) (Proc.devRef .tc main_arg13)) (StableHlo.after hostOps2 (W4 m ρ c) (Proc.devRef .tc main_arg15))
      (fun q => StableHlo.after hostOps2 (W4 m ρ c) (Proc.devRef .tc main_v64) (ix2 (0 : Fin 1) q)) = _
  rw [Stretch.mean_2, Stretch.own_2, Stretch.keeps_2_arg13, Stretch.keeps_2_arg15, Stretch.bias_2, bias_row]
  rw [after_region1]
  have h_arg5 : W4 m ρ c (Proc.devRef .tc main_arg5) = m ((c : Thread nD τ).loc main_arg5) := arg_W4 m ρ c main_arg5 (by decide) (by decide) (Stretch.keeps_0_arg5 _) (Stretch.keeps_1_arg5 _)
  have h_arg6 : W4 m ρ c (Proc.devRef .tc main_arg6) = m ((c : Thread nD τ).loc main_arg6) := arg_W4 m ρ c main_arg6 (by decide) (by decide) (Stretch.keeps_0_arg6 _) (Stretch.keeps_1_arg6 _)
  have h_arg13 : W4 m ρ c (Proc.devRef .tc main_arg13) = m ((c : Thread nD τ).loc main_arg13) := arg_W4 m ρ c main_arg13 (by decide) (by decide) (Stretch.keeps_0_arg13 _) (Stretch.keeps_1_arg13 _)
  have h_arg14 : W4 m ρ c (Proc.devRef .tc main_arg14) = m ((c : Thread nD τ).loc main_arg14) := arg_W4 m ρ c main_arg14 (by decide) (by decide) (Stretch.keeps_0_arg14 _) (Stretch.keeps_1_arg14 _)
  have h_arg15 : W4 m ρ c (Proc.devRef .tc main_arg15) = m ((c : Thread nD τ).loc main_arg15) := arg_W4 m ρ c main_arg15 (by decide) (by decide) (Stretch.keeps_0_arg15 _) (Stretch.keeps_1_arg15 _)
  rw [h_arg5, h_arg6, h_arg13, h_arg14, h_arg15]
  rfl

end Cert.KernelIdeal.Result

end
-- ==== Proof.ReferenceLayers.lean ====
/-
  The reference, layer by layer.

  The reference computes each layer on the host: the aggregation (the same gather, segment sums and division as the
  kernel's host side, on the same operands), a general dot product of the means with the left weights, the bias
  repeated down the rows and added, a general dot product of the target nodes' own rows with the right weights,
  added, and for the first two layers the positive part.  Read at the entry (r, c), each dot product is the sum
  over k of row r times column c, so the layer's output is the graph-convolution layer of SageLayer, and the whole
  reference is the three layers of SageNet composed.
-/
import proofs.«171831_j46153718563001_1_alg».proof.Proof.Gen.ReferenceIdeal.Read
import proofs.«171831_j46153718563001_1_alg».proof.Proof.SageNet

noncomputable section

namespace Cert.ReferenceIdeal.Layers

open Cert.ReferenceIdeal Cert.ReferenceIdeal.Gen Cert.ReferenceIdeal.Read Idealize.ShloMosaic Idealize.ShloMosaic.TcCoe
open Idealize.ShloMosaic.ValueIdx Cert.Lib.RowColumn

set_option Elab.async false

/-- The layer's entry (r, c), with the positive part, from sums read at index functions that are row r and column c and a
    bias read at c — spelt with the host's own operations at the ideal instance, as the reference's stages read. -/
theorem entry_relu {N : Nat} (mean own : (⟨2, ![N, 128]⟩ : Shape).Idx → EReal)
    (Wl Wr : (⟨2, ![128, 128]⟩ : Shape).Idx → EReal) (bias : Fin 128 → EReal) (r : Fin N) (c : Fin 128)
    (li : Fin 128 → (⟨2, ![N, 128]⟩ : Shape).Idx) (ri : Fin 128 → (⟨2, ![128, 128]⟩ : Shape).Idx)
    (li' : Fin 128 → (⟨2, ![N, 128]⟩ : Shape).Idx) (ri' : Fin 128 → (⟨2, ![128, 128]⟩ : Shape).Idx) (b : EReal)
    (hli : ∀ k, li k = ix2 r k) (hri : ∀ k, ri k = ix2 k c) (hli' : ∀ k, li' k = ix2 r k) (hri' : ∀ k, ri' k = ix2 k c)
    (hb : b = bias c) :
    FloatOps.maximumf (F := Ideal) (φ := .f32)
        (FloatOps.addf (F := Ideal) (φ := .f32)
          (FloatOps.addf (F := Ideal) (φ := .f32) (∑ k : Fin 128, mean (li k) * Wl (ri k)) b)
          (∑ k : Fin 128, own (li' k) * Wr (ri' k)))
        (FloatOps.ofBits (F := Ideal) FTy.f32 0#32)
      = Cert.Sage.layer true mean own Wl Wr bias (ix2 r c) := by
  rw [Cert.Sage.layer_entry]
  simp only [hli, hri, hli', hri', hb]
  rfl

/-- The same without the activation. -/
theorem entry_plain {N : Nat} (mean own : (⟨2, ![N, 128]⟩ : Shape).Idx → EReal)
    (Wl Wr : (⟨2, ![128, 128]⟩ : Shape).Idx → EReal) (bias : Fin 128 → EReal) (r : Fin N) (c : Fin 128)
    (li : Fin 128 → (⟨2, ![N, 128]⟩ : Shape).Idx) (ri : Fin 128 → (⟨2, ![128, 128]⟩ : Shape).Idx)
    (li' : Fin 128 → (⟨2, ![N, 128]⟩ : Shape).Idx) (ri' : Fin 128 → (⟨2, ![128, 128]⟩ : Shape).Idx) (b : EReal)
    (hli : ∀ k, li k = ix2 r k) (hri : ∀ k, ri k = ix2 k c) (hli' : ∀ k, li' k = ix2 r k) (hri' : ∀ k, ri' k = ix2 k c)
    (hb : b = bias c) :
    FloatOps.addf (F := Ideal) (φ := .f32)
        (FloatOps.addf (F := Ideal) (φ := .f32) (∑ k : Fin 128, mean (li k) * Wl (ri k)) b)
        (∑ k : Fin 128, own (li' k) * Wr (ri' k))
      = Cert.Sage.layer false mean own Wl Wr bias (ix2 r c) := by
  rw [Cert.Sage.layer_entry]
  simp only [hli, hri, hli', hri', hb]
  rfl

/-! ## Layer 0 -/

/-- The reference's aggregation at layer 0 is the network's: the same host operations on the same operands. -/
theorem mean0_eq (x0 : (⟨S1362944x128, .f32⟩ : BufTy).Contents (Elt Ideal)) (x1 x2 : (⟨S1239040, .i32⟩ : BufTy).Contents (Elt Ideal)) (x3 x4 : (⟨S112640, .i32⟩ : BufTy).Contents (Elt Ideal)) (x5 x6 : (⟨S10240, .i32⟩ : BufTy).Contents (Elt Ideal))
    (x7 : (⟨S128x128, .f32⟩ : BufTy).Contents (Elt Ideal)) (x8 : (⟨S128, .f32⟩ : BufTy).Contents (Elt Ideal)) (x9 x10 : (⟨S128x128, .f32⟩ : BufTy).Contents (Elt Ideal)) (x11 : (⟨S128, .f32⟩ : BufTy).Contents (Elt Ideal)) (x12 x13 : (⟨S128x128, .f32⟩ : BufTy).Contents (Elt Ideal)) (x14 : (⟨S128, .f32⟩ : BufTy).Contents (Elt Ideal)) (x15 : (⟨S128x128, .f32⟩ : BufTy).Contents (Elt Ideal)) :
    val_main_v18 (F := Ideal) x0 x1 x2 = Cert.KernelIdeal.Net.mean0 x0 x1 x2 := rfl

/-- So is its slice of the target nodes' own rows. -/
theorem own0_eq (x0 : (⟨S1362944x128, .f32⟩ : BufTy).Contents (Elt Ideal)) (x1 x2 : (⟨S1239040, .i32⟩ : BufTy).Contents (Elt Ideal)) (x3 x4 : (⟨S112640, .i32⟩ : BufTy).Contents (Elt Ideal)) (x5 x6 : (⟨S10240, .i32⟩ : BufTy).Contents (Elt Ideal))
    (x7 : (⟨S128x128, .f32⟩ : BufTy).Contents (Elt Ideal)) (x8 : (⟨S128, .f32⟩ : BufTy).Contents (Elt Ideal)) (x9 x10 : (⟨S128x128, .f32⟩ : BufTy).Contents (Elt Ideal)) (x11 : (⟨S128, .f32⟩ : BufTy).Contents (Elt Ideal)) (x12 x13 : (⟨S128x128, .f32⟩ : BufTy).Contents (Elt Ideal)) (x14 : (⟨S128, .f32⟩ : BufTy).Contents (Elt Ideal)) (x15 : (⟨S128x128, .f32⟩ : BufTy).Contents (Elt Ideal)) :
    val_main_v23 (F := Ideal) x0 = Cert.KernelIdeal.Net.own0 x0 := rfl

/-- The reference's layer 0 output is the network's layer 0 of the input features. -/
theorem layer0_eq (x0 : (⟨S1362944x128, .f32⟩ : BufTy).Contents (Elt Ideal)) (x1 x2 : (⟨S1239040, .i32⟩ : BufTy).Contents (Elt Ideal)) (x3 x4 : (⟨S112640, .i32⟩ : BufTy).Contents (Elt Ideal)) (x5 x6 : (⟨S10240, .i32⟩ : BufTy).Contents (Elt Ideal))
    (x7 : (⟨S128x128, .f32⟩ : BufTy).Contents (Elt Ideal)) (x8 : (⟨S128, .f32⟩ : BufTy).Contents (Elt Ideal)) (x9 x10 : (⟨S128x128, .f32⟩ : BufTy).Contents (Elt Ideal)) (x11 : (⟨S128, .f32⟩ : BufTy).Contents (Elt Ideal)) (x12 x13 : (⟨S128x128, .f32⟩ : BufTy).Contents (Elt Ideal)) (x14 : (⟨S128, .f32⟩ : BufTy).Contents (Elt Ideal)) (x15 : (⟨S128x128, .f32⟩ : BufTy).Contents (Elt Ideal)) :
    val_main_v26 (F := Ideal) x0 x1 x2 x7 x8 x9 = Cert.KernelIdeal.Net.layer0 x0 x1 x2 x7 x8 x9 := by
  funext i
  obtain ⟨r, c, rfl⟩ : ∃ (r : Fin 123904) (c : Fin 128), i = ix2 r c := ⟨i 0, i 1, eq_ix2 i⟩
  rw [val_main_v26_apply, val_main_v25_apply, val_main_v22_apply, val_main_v19_apply, val_main_v24_apply, val_main_v21_apply, val_main_v20_apply, val_main_call0_v0_apply, val_main_call0_cst_apply,
    mean0_eq x0 x1 x2 x3 x4 x5 x6 x7 x8 x9 x10 x11 x12 x13 x14 x15, own0_eq x0 x1 x2 x3 x4 x5 x6 x7 x8 x9 x10 x11 x12 x13 x14 x15]
  exact entry_relu (Cert.KernelIdeal.Net.mean0 x0 x1 x2) (Cert.KernelIdeal.Net.own0 x0) x7 x9
    (fun q => x8 (ix1 q)) r c
    (lidx_main_v19 (ix2 r c)) (ridx_main_v19 (ix2 r c)) (lidx_main_v24 (ix2 r c)) (ridx_main_v24 (ix2 r c))
    (x8 (idx_main_v20 (idx_main_v21 (ix2 r c))))
    (fun k => funext fun a => Fin.ext (by match a with | ⟨0, _⟩ => rfl | ⟨1, _⟩ => rfl))
    (fun k => funext fun a => Fin.ext (by match a with | ⟨0, _⟩ => rfl | ⟨1, _⟩ => rfl))
    (fun k => funext fun a => Fin.ext (by match a with | ⟨0, _⟩ => rfl | ⟨1, _⟩ => rfl))
    (fun k => funext fun a => Fin.ext (by match a with | ⟨0, _⟩ => rfl | ⟨1, _⟩ => rfl))
    (congrArg x8 (funext fun a => Fin.ext (by match a with | ⟨0, _⟩ => rfl)))

/-! ## Layer 1 -/

/-- The reference's aggregation at layer 1 is the network's: the same host operations on the same operands. -/
theorem mean1_eq (x0 : (⟨S1362944x128, .f32⟩ : BufTy).Contents (Elt Ideal)) (x1 x2 : (⟨S1239040, .i32⟩ : BufTy).Contents (Elt Ideal)) (x3 x4 : (⟨S112640, .i32⟩ : BufTy).Contents (Elt Ideal)) (x5 x6 : (⟨S10240, .i32⟩ : BufTy).Contents (Elt Ideal))
    (x7 : (⟨S128x128, .f32⟩ : BufTy).Contents (Elt Ideal)) (x8 : (⟨S128, .f32⟩ : BufTy).Contents (Elt Ideal)) (x9 x10 : (⟨S128x128, .f32⟩ : BufTy).Contents (Elt Ideal)) (x11 : (⟨S128, .f32⟩ : BufTy).Contents (Elt Ideal)) (x12 x13 : (⟨S128x128, .f32⟩ : BufTy).Contents (Elt Ideal)) (x14 : (⟨S128, .f32⟩ : BufTy).Contents (Elt Ideal)) (x15 : (⟨S128x128, .f32⟩ : BufTy).Contents (Elt Ideal)) :
    val_main_v45 (F := Ideal) x0 x1 x2 x3 x4 x7 x8 x9 = Cert.KernelIdeal.Net.mean1 (val_main_v26 (F := Ideal) x0 x1 x2 x7 x8 x9) x3 x4 := rfl

/-- So is its slice of the target nodes' own rows. -/
theorem own1_eq (x0 : (⟨S1362944x128, .f32⟩ : BufTy).Contents (Elt Ideal)) (x1 x2 : (⟨S1239040, .i32⟩ : BufTy).Contents (Elt Ideal)) (x3 x4 : (⟨S112640, .i32⟩ : BufTy).Contents (Elt Ideal)) (x5 x6 : (⟨S10240, .i32⟩ : BufTy).Contents (Elt Ideal))
    (x7 : (⟨S128x128, .f32⟩ : BufTy).Contents (Elt Ideal)) (x8 : (⟨S128, .f32⟩ : BufTy).Contents (Elt Ideal)) (x9 x10 : (⟨S128x128, .f32⟩ : BufTy).Contents (Elt Ideal)) (x11 : (⟨S128, .f32⟩ : BufTy).Contents (Elt Ideal)) (x12 x13 : (⟨S128x128, .f32⟩ : BufTy).Contents (Elt Ideal)) (x14 : (⟨S128, .f32⟩ : BufTy).Contents (Elt Ideal)) (x15 : (⟨S128x128, .f32⟩ : BufTy).Contents (Elt Ideal)) :
    val_main_v50 (F := Ideal) x0 x1 x2 x7 x8 x9 = Cert.KernelIdeal.Net.own1 (val_main_v26 (F := Ideal) x0 x1 x2 x7 x8 x9) := rfl

/-- The reference's layer 1 output is the network's layer 1 of the previous layer's output. -/
theorem layer1_eq (x0 : (⟨S1362944x128, .f32⟩ : BufTy).Contents (Elt Ideal)) (x1 x2 : (⟨S1239040, .i32⟩ : BufTy).Contents (Elt Ideal)) (x3 x4 : (⟨S112640, .i32⟩ : BufTy).Contents (Elt Ideal)) (x5 x6 : (⟨S10240, .i32⟩ : BufTy).Contents (Elt Ideal))
    (x7 : (⟨S128x128, .f32⟩ : BufTy).Contents (Elt Ideal)) (x8 : (⟨S128, .f32⟩ : BufTy).Contents (Elt Ideal)) (x9 x10 : (⟨S128x128, .f32⟩ : BufTy).Contents (Elt Ideal)) (x11 : (⟨S128, .f32⟩ : BufTy).Contents (Elt Ideal)) (x12 x13 : (⟨S128x128, .f32⟩ : BufTy).Contents (Elt Ideal)) (x14 : (⟨S128, .f32⟩ : BufTy).Contents (Elt Ideal)) (x15 : (⟨S128x128, .f32⟩ : BufTy).Contents (Elt Ideal)) :
    val_main_v53 (F := Ideal) x0 x1 x2 x3 x4 x7 x8 x9 x10 x11 x12 = Cert.KernelIdeal.Net.layer1 (val_main_v26 (F := Ideal) x0 x1 x2 x7 x8 x9) x3 x4 x10 x11 x12 := by
  funext i
  obtain ⟨r, c, rfl⟩ : ∃ (r : Fin 11264) (c : Fin 128), i = ix2 r c := ⟨i 0, i 1, eq_ix2 i⟩
  rw [val_main_v53_apply, val_main_v52_apply, val_main_v49_apply, val_main_v46_apply, val_main_v51_apply, val_main_v48_apply, val_main_v47_apply, val_main_call1_v0_apply, val_main_call1_cst_apply,
    mean1_eq x0 x1 x2 x3 x4 x5 x6 x7 x8 x9 x10 x11 x12 x13 x14 x15, own1_eq x0 x1 x2 x3 x4 x5 x6 x7 x8 x9 x10 x11 x12 x13 x14 x15]
  exact entry_relu (Cert.KernelIdeal.Net.mean1 (val_main_v26 (F := Ideal) x0 x1 x2 x7 x8 x9) x3 x4) (Cert.KernelIdeal.Net.own1 (val_main_v26 (F := Ideal) x0 x1 x2 x7 x8 x9)) x10 x12
    (fun q => x11 (ix1 q)) r c
    (lidx_main_v46 (ix2 r c)) (ridx_main_v46 (ix2 r c)) (lidx_main_v51 (ix2 r c)) (ridx_main_v51 (ix2 r c))
    (x11 (idx_main_v47 (idx_main_v48 (ix2 r c))))
    (fun k => funext fun a => Fin.ext (by match a with | ⟨0, _⟩ => rfl | ⟨1, _⟩ => rfl))
    (fun k => funext fun a => Fin.ext (by match a with | ⟨0, _⟩ => rfl | ⟨1, _⟩ => rfl))
    (fun k => funext fun a => Fin.ext (by match a with | ⟨0, _⟩ => rfl | ⟨1, _⟩ => rfl))
    (fun k => funext fun a => Fin.ext (by match a with | ⟨0, _⟩ => rfl | ⟨1, _⟩ => rfl))
    (congrArg x11 (funext fun a => Fin.ext (by match a with | ⟨0, _⟩ => rfl)))

/-! ## Layer 2 -/

/-- The reference's aggregation at layer 2 is the network's: the same host operations on the same operands. -/
theorem mean2_eq (x0 : (⟨S1362944x128, .f32⟩ : BufTy).Contents (Elt Ideal)) (x1 x2 : (⟨S1239040, .i32⟩ : BufTy).Contents (Elt Ideal)) (x3 x4 : (⟨S112640, .i32⟩ : BufTy).Contents (Elt Ideal)) (x5 x6 : (⟨S10240, .i32⟩ : BufTy).Contents (Elt Ideal))
    (x7 : (⟨S128x128, .f32⟩ : BufTy).Contents (Elt Ideal)) (x8 : (⟨S128, .f32⟩ : BufTy).Contents (Elt Ideal)) (x9 x10 : (⟨S128x128, .f32⟩ : BufTy).Contents (Elt Ideal)) (x11 : (⟨S128, .f32⟩ : BufTy).Contents (Elt Ideal)) (x12 x13 : (⟨S128x128, .f32⟩ : BufTy).Contents (Elt Ideal)) (x14 : (⟨S128, .f32⟩ : BufTy).Contents (Elt Ideal)) (x15 : (⟨S128x128, .f32⟩ : BufTy).Contents (Elt Ideal)) :
    val_main_v72 (F := Ideal) x0 x1 x2 x3 x4 x5 x6 x7 x8 x9 x10 x11 x12 = Cert.KernelIdeal.Net.mean2 (val_main_v53 (F := Ideal) x0 x1 x2 x3 x4 x7 x8 x9 x10 x11 x12) x5 x6 := rfl

/-- So is its slice of the target nodes' own rows. -/
theorem own2_eq (x0 : (⟨S1362944x128, .f32⟩ : BufTy).Contents (Elt Ideal)) (x1 x2 : (⟨S1239040, .i32⟩ : BufTy).Contents (Elt Ideal)) (x3 x4 : (⟨S112640, .i32⟩ : BufTy).Contents (Elt Ideal)) (x5 x6 : (⟨S10240, .i32⟩ : BufTy).Contents (Elt Ideal))
    (x7 : (⟨S128x128, .f32⟩ : BufTy).Contents (Elt Ideal)) (x8 : (⟨S128, .f32⟩ : BufTy).Contents (Elt Ideal)) (x9 x10 : (⟨S128x128, .f32⟩ : BufTy).Contents (Elt Ideal)) (x11 : (⟨S128, .f32⟩ : BufTy).Contents (Elt Ideal)) (x12 x13 : (⟨S128x128, .f32⟩ : BufTy).Contents (Elt Ideal)) (x14 : (⟨S128, .f32⟩ : BufTy).Contents (Elt Ideal)) (x15 : (⟨S128x128, .f32⟩ : BufTy).Contents (Elt Ideal)) :
    val_main_v77 (F := Ideal) x0 x1 x2 x3 x4 x7 x8 x9 x10 x11 x12 = Cert.KernelIdeal.Net.own2 (val_main_v53 (F := Ideal) x0 x1 x2 x3 x4 x7 x8 x9 x10 x11 x12) := rfl

/-- The reference's layer 2 output is the network's layer 2 of the previous layer's output. -/
theorem layer2_eq (x0 : (⟨S1362944x128, .f32⟩ : BufTy).Contents (Elt Ideal)) (x1 x2 : (⟨S1239040, .i32⟩ : BufTy).Contents (Elt Ideal)) (x3 x4 : (⟨S112640, .i32⟩ : BufTy).Contents (Elt Ideal)) (x5 x6 : (⟨S10240, .i32⟩ : BufTy).Contents (Elt Ideal))
    (x7 : (⟨S128x128, .f32⟩ : BufTy).Contents (Elt Ideal)) (x8 : (⟨S128, .f32⟩ : BufTy).Contents (Elt Ideal)) (x9 x10 : (⟨S128x128, .f32⟩ : BufTy).Contents (Elt Ideal)) (x11 : (⟨S128, .f32⟩ : BufTy).Contents (Elt Ideal)) (x12 x13 : (⟨S128x128, .f32⟩ : BufTy).Contents (Elt Ideal)) (x14 : (⟨S128, .f32⟩ : BufTy).Contents (Elt Ideal)) (x15 : (⟨S128x128, .f32⟩ : BufTy).Contents (Elt Ideal)) :
    val_main_v79 (F := Ideal) x0 x1 x2 x3 x4 x5 x6 x7 x8 x9 x10 x11 x12 x13 x14 x15 = Cert.KernelIdeal.Net.layer2 (val_main_v53 (F := Ideal) x0 x1 x2 x3 x4 x7 x8 x9 x10 x11 x12) x5 x6 x13 x14 x15 := by
  funext i
  obtain ⟨r, c, rfl⟩ : ∃ (r : Fin 1024) (c : Fin 128), i = ix2 r c := ⟨i 0, i 1, eq_ix2 i⟩
  rw [val_main_v79_apply, val_main_v76_apply, val_main_v73_apply, val_main_v78_apply, val_main_v75_apply, val_main_v74_apply,
    mean2_eq x0 x1 x2 x3 x4 x5 x6 x7 x8 x9 x10 x11 x12 x13 x14 x15, own2_eq x0 x1 x2 x3 x4 x5 x6 x7 x8 x9 x10 x11 x12 x13 x14 x15]
  exact entry_plain (Cert.KernelIdeal.Net.mean2 (val_main_v53 (F := Ideal) x0 x1 x2 x3 x4 x7 x8 x9 x10 x11 x12) x5 x6) (Cert.KernelIdeal.Net.own2 (val_main_v53 (F := Ideal) x0 x1 x2 x3 x4 x7 x8 x9 x10 x11 x12)) x13 x15
    (fun q => x14 (ix1 q)) r c
    (lidx_main_v73 (ix2 r c)) (ridx_main_v73 (ix2 r c)) (lidx_main_v78 (ix2 r c)) (ridx_main_v78 (ix2 r c))
    (x14 (idx_main_v74 (idx_main_v75 (ix2 r c))))
    (fun k => funext fun a => Fin.ext (by match a with | ⟨0, _⟩ => rfl | ⟨1, _⟩ => rfl))
    (fun k => funext fun a => Fin.ext (by match a with | ⟨0, _⟩ => rfl | ⟨1, _⟩ => rfl))
    (fun k => funext fun a => Fin.ext (by match a with | ⟨0, _⟩ => rfl | ⟨1, _⟩ => rfl))
    (fun k => funext fun a => Fin.ext (by match a with | ⟨0, _⟩ => rfl | ⟨1, _⟩ => rfl))
    (congrArg x14 (funext fun a => Fin.ext (by match a with | ⟨0, _⟩ => rfl)))

/-- The reference's result is the three layers composed, of the sixteen arguments. -/
theorem result_eq (m : (ℓ : Loc nD τ sig) → Buf (Elt Ideal) ℓ) (c : Dev nD) :
    Cert.ReferenceIdeal.Value.res_main_v79 m c
      = Cert.KernelIdeal.Net.layer2
          (Cert.KernelIdeal.Net.layer1
            (Cert.KernelIdeal.Net.layer0 (m ((c.tc : Thread nD τ).loc main_arg0)) (m ((c.tc : Thread nD τ).loc main_arg1)) (m ((c.tc : Thread nD τ).loc main_arg2))
              (m ((c.tc : Thread nD τ).loc main_arg7)) (m ((c.tc : Thread nD τ).loc main_arg8)) (m ((c.tc : Thread nD τ).loc main_arg9)))
            (m ((c.tc : Thread nD τ).loc main_arg3)) (m ((c.tc : Thread nD τ).loc main_arg4))
            (m ((c.tc : Thread nD τ).loc main_arg10)) (m ((c.tc : Thread nD τ).loc main_arg11)) (m ((c.tc : Thread nD τ).loc main_arg12)))
          (m ((c.tc : Thread nD τ).loc main_arg5)) (m ((c.tc : Thread nD τ).loc main_arg6))
          (m ((c.tc : Thread nD τ).loc main_arg13)) (m ((c.tc : Thread nD τ).loc main_arg14)) (m ((c.tc : Thread nD τ).loc main_arg15)) := by
  rw [val_main_v79_eq,
    layer2_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)),
    layer1_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)),
    layer0_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))]

end Cert.ReferenceIdeal.Layers

end
-- ==== Proof.lean ====
/-
  A three-layer mean-aggregating graph convolution: a kernel program against a plain reference, on the extended
  reals.

  Both programs compute, layer by layer, the neighbour means of the layer's input (a gather along the edges, a
  segment sum, a division by the in-degree floored at one) and then the dense part
      σ ( mean · Wl + bias + own · Wr ),   σ = max (·, 0) for the first two layers, the identity for the last.
  The reference does the dense part on the host as  (mean · Wl + bias) + own · Wr.  The kernel program does the
  aggregation on the host with the same operations and the dense part in a pipelined region over blocks of 1024
  rows as  (mean · Wl + own · Wr) + bias, its matrix operands rounded to bf16, which is the identity on extended
  reals.  Addition of extended reals is commutative and associative, so the two arrangements agree at every entry
  with no finiteness assumption; a layer's row depends on the same row of its row inputs only, so the blocks of
  rows assemble to the whole layer; and the three layers compose the same way in both programs.

  The frames of the two kernel programs are the generated ones; the reference's frame is its generated run with the
  result dropped.  The ideal pass rewrote nothing, so the kernel program is its own idealization.
-/
import proofs.«171831_j46153718563001_1_alg».proof.Defs
import proofs.«171831_j46153718563001_1_alg».proof.Proof.Gen.Kernel
import proofs.«171831_j46153718563001_1_alg».proof.Proof.Gen.Kernel.Frame
import proofs.«171831_j46153718563001_1_alg».proof.Proof.Gen.KernelIdeal
import proofs.«171831_j46153718563001_1_alg».proof.Proof.Gen.KernelIdeal.Frame
import proofs.«171831_j46153718563001_1_alg».proof.Proof.Gen.ReferenceIdeal
import proofs.«171831_j46153718563001_1_alg».proof.Proof.Gen.ReferenceIdeal.Run
import proofs.«171831_j46153718563001_1_alg».proof.Proof.Gen.ReferenceIdeal.Read
import proofs.«171831_j46153718563001_1_alg».proof.Proof.Gen.Pre_finite_inputs
import proofs.«171831_j46153718563001_1_alg».proof.Proof.KernelRun
import proofs.«171831_j46153718563001_1_alg».proof.Proof.KernelResult
import proofs.«171831_j46153718563001_1_alg».proof.Proof.ReferenceLayers
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both idealized programs end with the three layers composed, of arguments that agree. -/
theorem algebraic : Cert.algebraic_KernelIdeal_ReferenceIdeal := by
  intro m ρ m' ρ' _ hagree
  refine ⟨fun c => Cert.KernelIdeal.Net.layer2_of m c, ?_, ?_⟩
  · exact (θ_run Cert.KernelIdeal.defs _ _).mono
      (fun r h c => ⟨(h c).1.trans (Cert.KernelIdeal.Result.after_region2 m ρ c), (h c).2⟩)
      (Cert.KernelIdeal.Run.result_and_arguments m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12, a13, a14, a15⟩ := hagree c
    rw [Cert.ReferenceIdeal.Layers.result_eq, a0, a1, a2, a3, a4, a5, a6, a7, a8, a9, a10, a11, a12, a13, a14, a15]
    rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
